-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 89
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S1x40, .f32⟩
  | .hbm, ⟨88, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S1x40, .f32⟩
  | .local _ .vmem, ⟨24, _⟩ => ⟨S5000x40, .f32⟩
  | .local _ .vmem, ⟨25, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S100000x40.size a
  hwx4_3 : ∀ i : grid4.Coords, EltTy.bits .f32 = 32 ∨ (Rect.block (s := S100000x40) S5000x40.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x40, .f32⟩
  | .hbm, ⟨96, _⟩ => ⟨S1x40, .f32⟩
  | .hbm, ⟨97, _⟩ => ⟨S100000x40, .f32⟩
  | .hbm, ⟨98, _⟩ => ⟨S100000x40, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S100000, .f32⟩
  | .hbm, ⟨103, _⟩ => ⟨S100000, .f32⟩
  | .hbm, ⟨104, _⟩ => ⟨S100000x1, .f32⟩
  | .hbm, ⟨105, _⟩ => ⟨S100000x40, .f32⟩
  | .hbm, ⟨106, _⟩ => ⟨S100000x40, .f32⟩
  | .hbm, ⟨107, _⟩ => ⟨S100000x40, .f32⟩
  | .hbm, ⟨108, _⟩ => ⟨S_, .f32⟩
  | .hbm, ⟨109, _⟩ => ⟨S100000, .f32⟩
  | .hbm, ⟨110, _⟩ => ⟨S100000x1, .f32⟩
  | .hbm, ⟨111, _⟩ => ⟨S100000x1, .f32⟩
  | .hbm, ⟨112, _⟩ => ⟨S100000x40, .f32⟩
  | .hbm, ⟨113, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call3_cst : Ref sig .tc := ⟨.hbm, 99, rfl⟩
abbrev main_call3_v0 : Ref sig .tc := ⟨.hbm, 100, rfl⟩
abbrev main_call3_cst_0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_v6 : Ref sig .tc := ⟨.hbm, 107, rfl⟩
abbrev main_call3_cst_1 : Ref sig .tc := ⟨.hbm, 108, rfl⟩
abbrev main_call3_v7 : Ref sig .tc := ⟨.hbm, 109, rfl⟩
abbrev main_call3_v8 : Ref sig .tc := ⟨.hbm, 110, rfl⟩
abbrev main_call3_v9 : Ref sig .tc := ⟨.hbm, 111, rfl⟩
abbrev main_call3_v10 : Ref sig .tc := ⟨.hbm, 112, rfl⟩
abbrev main_v70 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The kernel program's run with its result named.

  The program is five kernel launches among stretches of host operations. Its run from the launch memory ends, on every
  core, with every buffer at the contents the last segment boundary gives it; so the result array `main_v63` ends at
  that boundary's contents of its buffer, and the nine argument arrays as launched. What those contents are, as a
  function of the arguments, is read off the boundary's contents segment by segment elsewhere.
-/
import proofs.«174355_j85005992722928_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of its buffer and the arguments end as launched. -/
theorem run : θ_run defs (onTc (τ := τ) (main (F := F))) ⟨m, fun _ => 0, ρ⟩ (fun r => ∀ c : Dev nD,
      r.2.mem ((c.tc : Thread nD τ).loc main_v63) = W11 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v63 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.ValueRun

end
-- ==== Proof.LibDenseSpec.lean ====
/-
  The three dense stages of the two-layer graph convolution network, as whole-array functions on extended reals.

  A node-feature matrix `A` of `R` rows is mapped row by row, so a stage's entry at row `r` depends on row `r`
  of its input only:
    * `linear X W`            — the product `X · W`;
    * `reluLinear A b W`      — `relu (A + b) · W`, the bias `b` added to every row;
    * `reluLinearLogistic A b W β` — `σ (relu (A + b) · W + β)`, with `σ t = 1 / (1 + e⁻ᵗ)`.
  The zero of the rectifier is kept as the all-zero 32-bit word read at the ideal values: the same word stands on both
  sides of every equation below and is never evaluated.
-/
import Idealize.ShloMosaic.PureOps.Ideal
import Idealize.ShloMosaic.Lib.ValueIdx

noncomputable section

namespace Cert.Gcn

open Idealize.ShloMosaic Idealize.ShloMosaic.ValueIdx

variable {R K N : ℕ}

/-- The matrix product: entry `(r, c)` is the sum over `k` of `X[r,k] * W[k,c]`. -/
def linear (X : FVec Ideal ⟨2, ![R, K]⟩ .f32) (W : FVec Ideal ⟨2, ![K, N]⟩ .f32) : FVec Ideal ⟨2, ![R, N]⟩ .f32 :=
  fun i => ∑ k : Fin K, X (ix2 (i 0) k) * W (ix2 k (i 1))

/-- A row bias added and the rectifier applied, entry by entry. -/
def biasRelu (A : FVec Ideal ⟨2, ![R, K]⟩ .f32) (b : FVec Ideal ⟨1, ![K]⟩ .f32) : FVec Ideal ⟨2, ![R, K]⟩ .f32 :=
  fun i => max (A i + b (ix1 (i 1))) (Ideal.ofBits .f32 0x00000000#32)

/-- `relu (A + b) · W`. -/
def reluLinear (A : FVec Ideal ⟨2, ![R, K]⟩ .f32) (b : FVec Ideal ⟨1, ![K]⟩ .f32) (W : FVec Ideal ⟨2, ![K, N]⟩ .f32) :
    FVec Ideal ⟨2, ![R, N]⟩ .f32 :=
  linear (biasRelu A b) W

/-- `σ (relu (A + b) · W + β)` for a one-column `W` and a one-entry `β`. -/
def reluLinearLogistic (A : FVec Ideal ⟨2, ![R, K]⟩ .f32) (b : FVec Ideal ⟨1, ![K]⟩ .f32) (W : FVec Ideal ⟨2, ![K, 1]⟩ .f32)
    (β : FVec Ideal ⟨1, ![1]⟩ .f32) : FVec Ideal ⟨2, ![R, 1]⟩ .f32 :=
  fun i => Ideal.logistic (reluLinear A b W i + β (ix1 (0 : Fin 1)))

theorem linear_ix2 (X : FVec Ideal ⟨2, ![R, K]⟩ .f32) (W : FVec Ideal ⟨2, ![K, N]⟩ .f32) (r : Fin R) (c : Fin N) :
    linear X W (ix2 r c) = ∑ k : Fin K, X (ix2 r k) * W (ix2 k c) := rfl

theorem biasRelu_ix2 (A : FVec Ideal ⟨2, ![R, K]⟩ .f32) (b : FVec Ideal ⟨1, ![K]⟩ .f32) (r : Fin R) (k : Fin K) :
    biasRelu A b (ix2 r k) = max (A (ix2 r k) + b (ix1 k)) (Ideal.ofBits .f32 0x00000000#32) := rfl

/-- Two inputs that agree on row `r` give the same product row. -/
theorem linear_congr_row (X X' : FVec Ideal ⟨2, ![R, K]⟩ .f32) (W : FVec Ideal ⟨2, ![K, N]⟩ .f32) (r : Fin R) (c : Fin N)
    (h : ∀ k : Fin K, X (ix2 r k) = X' (ix2 r k)) : linear X W (ix2 r c) = linear X' W (ix2 r c) := by
  rw [linear_ix2, linear_ix2]
  exact Finset.sum_congr rfl fun k _ => by rw [h k]

end Cert.Gcn

end
-- ==== Proof.NetSpec.lean ====
/-
  The network as one function of its arrays, on extended reals.

  Two graph-convolution layers and a classification head over `R` nodes. With `P` the propagation step (the same
  operation on both sides of the comparison: a normalised sum over the incoming edges of each node, a function of the
  edge list only), the result is

      head (biasRelu (P (linear (biasRelu (P (linear X W₁)) b₁) W₂)) b₂) W₃ b₃

  where `linear` is the matrix product, `biasRelu A b = max (A + b) 0` row by row, and
  `head H W b = logSoftmax (H · W + b)`: for each row, with `M` the row's maximum (the fold of `max` from `-∞` over the
  row), entry `c` is `(ℓ c − M) − log (∑ q, exp (ℓ q − M))`.

  The words for `-∞` and `0` are kept as words: the same word stands on both sides of every equation.
-/
import proofs.«174355_j85005992722928_1_alg».proof.Proof.LibDenseSpec
import Idealize.ShloMosaic.PureOps.Ideal
import Idealize.ShloMosaic.Lib.ValueIdx

noncomputable section

namespace Cert.Gcn

open Idealize.ShloMosaic Idealize.ShloMosaic.ValueIdx

variable {R K N : ℕ}

/-- A one-row matrix read as a vector. -/
def rowOf (B : FVec Ideal ⟨2, ![1, K]⟩ .f32) : FVec Ideal ⟨1, ![K]⟩ .f32 :=
  fun i => B (ix2 (0 : Fin 1) (i 0))

theorem rowOf_ix1 (B : FVec Ideal ⟨2, ![1, K]⟩ .f32) (k : Fin K) : rowOf B (ix1 k) = B (ix2 (0 : Fin 1) k) := rfl

/-- A vector added to every row. -/
def biasAdd (A : FVec Ideal ⟨2, ![R, N]⟩ .f32) (b : FVec Ideal ⟨1, ![N]⟩ .f32) : FVec Ideal ⟨2, ![R, N]⟩ .f32 :=
  fun i => A i + b (ix1 (i 1))

theorem biasAdd_ix2 (A : FVec Ideal ⟨2, ![R, N]⟩ .f32) (b : FVec Ideal ⟨1, ![N]⟩ .f32) (r : Fin R) (c : Fin N) :
    biasAdd A b (ix2 r c) = A (ix2 r c) + b (ix1 c) := rfl

/-- The maximum of row `r`: the fold of `max`, from `-∞`, over the row's entries. -/
def rowMax (L : FVec Ideal ⟨2, ![R, N]⟩ .f32) (r : Fin R) : EReal :=
  (Finset.univ : Finset (Fin N)).fold max (Ideal.ofBits .f32 0xFF800000#32) (fun q => L (ix2 r q))

/-- The sum over row `r` of `exp (entry − the row's maximum)`. -/
def rowExpSum (L : FVec Ideal ⟨2, ![R, N]⟩ .f32) (r : Fin R) : EReal :=
  ∑ q : Fin N, Ideal.exp (L (ix2 r q) - rowMax L r)

/-- The logarithm of the softmax along each row. -/
def logSoftmax (L : FVec Ideal ⟨2, ![R, N]⟩ .f32) : FVec Ideal ⟨2, ![R, N]⟩ .f32 :=
  fun i => (L i - rowMax L (i 0)) - Ideal.log (rowExpSum L (i 0))

theorem logSoftmax_ix2 (L : FVec Ideal ⟨2, ![R, N]⟩ .f32) (r : Fin R) (c : Fin N) :
    logSoftmax L (ix2 r c) = (L (ix2 r c) - rowMax L r) - Ideal.log (rowExpSum L r) := rfl

/-- Two matrices that agree on row `r` (of one) and row `r'` (of the other) have the same maximum there. -/
theorem rowMax_congr {R' : ℕ} (L : FVec Ideal ⟨2, ![R, N]⟩ .f32) (L' : FVec Ideal ⟨2, ![R', N]⟩ .f32) (r : Fin R) (r' : Fin R')
    (h : ∀ q : Fin N, L (ix2 r q) = L' (ix2 r' q)) : rowMax L r = rowMax L' r' := by
  unfold rowMax
  exact Finset.fold_congr fun q _ => h q

theorem rowExpSum_congr {R' : ℕ} (L : FVec Ideal ⟨2, ![R, N]⟩ .f32) (L' : FVec Ideal ⟨2, ![R', N]⟩ .f32) (r : Fin R) (r' : Fin R')
    (h : ∀ q : Fin N, L (ix2 r q) = L' (ix2 r' q)) : rowExpSum L r = rowExpSum L' r' := by
  unfold rowExpSum
  rw [rowMax_congr L L' r r' h]
  exact Finset.sum_congr rfl fun q _ => by rw [h q]

/-- So the log-softmax at `(r, c)` depends on row `r` only. -/
theorem logSoftmax_congr_row {R' : ℕ} (L : FVec Ideal ⟨2, ![R, N]⟩ .f32) (L' : FVec Ideal ⟨2, ![R', N]⟩ .f32) (r : Fin R) (r' : Fin R')
    (c : Fin N) (h : ∀ q : Fin N, L (ix2 r q) = L' (ix2 r' q)) : logSoftmax L (ix2 r c) = logSoftmax L' (ix2 r' c) := by
  rw [logSoftmax_ix2, logSoftmax_ix2, rowMax_congr L L' r r' h, rowExpSum_congr L L' r r' h, h c]

/-- The classification head: `logSoftmax (H · W + b)`. -/
def head (H : FVec Ideal ⟨2, ![R, K]⟩ .f32) (W : FVec Ideal ⟨2, ![K, N]⟩ .f32) (b : FVec Ideal ⟨1, ![N]⟩ .f32) :
    FVec Ideal ⟨2, ![R, N]⟩ .f32 :=
  logSoftmax (biasAdd (linear H W) b)

/-- The whole network, the propagation step `P` a parameter. -/
def network {D : ℕ} (P : FVec Ideal ⟨2, ![R, D]⟩ .f32 → FVec Ideal ⟨2, ![R, D]⟩ .f32)
    (X : FVec Ideal ⟨2, ![R, K]⟩ .f32) (W₁ : FVec Ideal ⟨2, ![K, D]⟩ .f32) (b₁ : FVec Ideal ⟨1, ![D]⟩ .f32)
    (W₂ : FVec Ideal ⟨2, ![D, D]⟩ .f32) (b₂ : FVec Ideal ⟨1, ![D]⟩ .f32)
    (W₃ : FVec Ideal ⟨2, ![D, N]⟩ .f32) (b₃ : FVec Ideal ⟨1, ![N]⟩ .f32) : FVec Ideal ⟨2, ![R, N]⟩ .f32 :=
  head (biasRelu (P (linear (biasRelu (P (linear X W₁)) b₁) W₂)) b₂) W₃ b₃

end Cert.Gcn

end
-- ==== Proof.HostPieces.lean ====
/-
  The operations both programs run on the host, named once.

  From the edge list `e` (2 × 1600000 node numbers: row 0 the sources, row 1 the destinations), with a self-loop added
  for every node:
    * `srcIds e`, `dstIds e`   — the 1700000 source and destination ids (the row of `e`, then 0 … 99999);
    * `wrap v`                 — an id below zero is counted from the end (`v + 100000`), any other kept;
    * `degree e`               — for each node the number of edges arriving at it, a sum of ones;
    * `invSqrtDegree e`        — `degree ^ (-1/2)` where the degree is positive, zero elsewhere;
    * `edgeWeight e`           — per edge, the product of that value at its source and at its destination;
    * `propagate e Y`          — for each node the sum, over the edges arriving at it, of the source's row of `Y`
                                 times the edge's weight.
  Neither program's proof opens any of them: the two programs apply the same operations to the same arguments.
-/
import proofs.«174355_j85005992722928_1_alg».proof.ReferenceIdeal
import proofs.«174355_j85005992722928_1_alg».proof.Proof.Gen.ReferenceIdeal
import Idealize.ShloMosaic.PureOps.Ideal

noncomputable section

namespace Cert.ReferenceIdeal.Pieces

open Cert.ReferenceIdeal Cert.ReferenceIdeal.Gen Idealize.ShloMosaic

abbrev EdgeList := IVec S2x1600000 32
abbrev Ids := IVec S1700000 32
abbrev NodeVec := FVec Ideal S100000 .f32
abbrev EdgeVec := FVec Ideal S1700000 .f32
abbrev NodeMat := FVec Ideal S100000x128 .f32

/-- The source ids: row 0 of the edge list, then every node once. -/
def srcIds (e : EdgeList) : Ids :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destination ids: row 1 of the edge list, then every node once. -/
def dstIds (e : EdgeList) : Ids :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- An id below zero counted from the end. -/
def wrap (v : Ids) : Ids :=
  select (cmpi .slt v (broadcastInDim S1700000 ![] bcast_S_S1700000 (constantI S_ 32 0#32))) (addi v (broadcastInDim S1700000 ![] bcast_S_S1700000 (constantI S_ 32 100000#32))) v

/-- Ids as a column of one-entry index vectors. -/
def idColumn (v : Ids) : IVec S1700000x1 32 :=
  broadcastInDim S1700000x1 ![0] bcast_S1700000_S1700000x1_0 v

/-- The number of edges arriving at each node. -/
def degree (e : EdgeList) : NodeVec :=
  Host.scatterAdd (F := Ideal) scatter_S100000_S1700000x1_S1700000_n_0_0_1 (broadcastInDim S100000 ![] bcast_S_S100000 (constant (F := Ideal) S_ .f32 0x00000000#32)) (idColumn (dstIds e)) (broadcastInDim S1700000 ![] bcast_S_S1700000 (constant (F := Ideal) S_ .f32 0x3F800000#32))

/-- `a` where `p` holds, the scalar `z` elsewhere. -/
def whereElse (p : IVec S100000 1) (a : NodeVec) (z : FVec Ideal S_ .f32) : NodeVec :=
  select p a (broadcastInDim S100000 ![] bcast_S_S100000 (id z))

/-- `degree ^ (-1/2)` where the degree is positive, zero elsewhere. -/
def invSqrtDegree (e : EdgeList) : NodeVec :=
  whereElse (cmpf (F := Ideal) .ogt (degree e) (broadcastInDim S100000 ![] bcast_S_S100000 (constant (F := Ideal) S_ .f32 0x00000000#32))) (Host.rsqrt (F := Ideal) (degree e)) (constant (F := Ideal) S_ .f32 0x00000000#32)

/-- Per edge, from a value `d` per node: its value at the edge's source times its value at the edge's destination. -/
def weightOf (d : NodeVec) (src dst : Ids) : EdgeVec :=
  mulf (Host.gather gather_S100000_S1700000x1_S1700000_n_0_n_n_0_1_1 d (idColumn (wrap src))) (Host.gather gather_S100000_S1700000x1_S1700000_n_0_n_n_0_1_1 d (idColumn (wrap dst)))

/-- Per edge: `invSqrtDegree` at its source times `invSqrtDegree` at its destination. -/
def edgeWeight (e : EdgeList) : EdgeVec :=
  weightOf (invSqrtDegree e) (srcIds e) (dstIds e)

/-- One propagation step over the graph, from per-edge weights `w`. -/
def propagateWith (src dst : Ids) (w : EdgeVec) (Y : NodeMat) : NodeMat :=
  Host.scatterAdd (F := Ideal) scatter_S100000x128_S1700000x1_S1700000x128_1_0_0_1 (broadcastInDim S100000x128 ![] bcast_S_S100000x128 (constant (F := Ideal) S_ .f32 0x00000000#32)) (idColumn dst) (mulf (Host.gather gather_S100000x128_S1700000x1_S1700000x128_1_0_n_n_0_1_1128 Y (idColumn (wrap src))) (broadcastInDim S1700000x128 ![0, 1] bcast_S1700000x1_S1700000x128_0_1 (broadcastInDim S1700000x1 ![0] bcast_S1700000_S1700000x1_0 w)))

/-- One propagation step over the graph of edge list `e`. -/
def propagate (e : EdgeList) (Y : NodeMat) : NodeMat :=
  propagateWith (srcIds e) (dstIds e) (edgeWeight e) Y

end Cert.ReferenceIdeal.Pieces

end
-- ==== Proof.HostStretches.lean ====
/-
  What the kernel program's host operations leave in the buffers its launches read.

  The program's host operations come in stretches between the launches. From any buffer contents `X`:
    * the operations before the first launch compute the source ids, the destination ids and the per-edge weights
      from the edge list alone;
    * the operations between a product launch and the rectifier launch after it apply one propagation step to the
      product (ids and weights as computed before) and reshape the layer's bias to one row;
    * the operation before the last launch reshapes the head's bias to one row.
  Each is the named host operation of the same arguments; a buffer a stretch does not write keeps its contents.
-/
import proofs.«174355_j85005992722928_1_alg».proof.Proof.Gen.KernelIdeal.Frame
import proofs.«174355_j85005992722928_1_alg».proof.Proof.HostPieces
import Idealize.ShloMosaic.Lib.StableHlo.Run
import Idealize.ShloMosaic.PureOps.Ideal

set_option maxRecDepth 16384

noncomputable section

namespace Cert.KernelIdeal.Stretches

open Cert.KernelIdeal Cert.KernelIdeal.Gen Idealize.ShloMosaic Idealize.ShloMosaic.TcCoe Idealize.ShloMosaic.StableHlo
open Cert.ReferenceIdeal.Pieces

variable (X : Valuation τ sig (Elt Ideal))

/-- A stretch keeps every buffer none of its operations writes. -/
macro "host_keeps" : tactic =>
  `(tactic| (refine StableHlo.after_of_forall_not_mem _ _ (List.forall_iff_forall_mem.mp ?_)
             simp only [hostOps0, hostOps0_1, hostOps0_2, hostOps1, hostOps3, hostOps4, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-! ## Before the first launch -/

/-- The contents after the three stretches before the first launch. -/
abbrev entry0 : Valuation τ sig (Elt Ideal) :=
  StableHlo.after hostOps0_2 (StableHlo.after hostOps0_1 (StableHlo.after hostOps0 X))

set_option maxRecDepth 262144 in
set_option maxHeartbeats 8000000 in
theorem entry0_src : entry0 X (Proc.devRef .tc main_v3) = srcIds (X (Proc.devRef .tc main_arg1)) := by
  after_results_simp <;> rfl

set_option maxRecDepth 262144 in
set_option maxHeartbeats 8000000 in
theorem entry0_dst : entry0 X (Proc.devRef .tc main_v6) = dstIds (X (Proc.devRef .tc main_arg1)) := by
  after_results_simp <;> rfl

/-! The edge weights, one stretch at a time: the first stretch computes the ids, the degree's test and inverse root and
    the zero scalar; the second takes the inverse root where the test holds; the third multiplies its values at the two
    ends of each edge. -/

set_option maxRecDepth 65536 in
set_option maxHeartbeats 8000000 in
theorem first_src : StableHlo.after hostOps0 X (Proc.devRef .tc main_v3) = srcIds (X (Proc.devRef .tc main_arg1)) := by
  after_results_simp <;> rfl
set_option maxRecDepth 65536 in
set_option maxHeartbeats 8000000 in
theorem first_dst : StableHlo.after hostOps0 X (Proc.devRef .tc main_v6) = dstIds (X (Proc.devRef .tc main_arg1)) := by
  after_results_simp <;> rfl
set_option maxRecDepth 65536 in
set_option maxHeartbeats 8000000 in
theorem first_test : StableHlo.after hostOps0 X (Proc.devRef .tc main_v12)
    = cmpf (F := Ideal) .ogt (degree (X (Proc.devRef .tc main_arg1))) (broadcastInDim S100000 ![] bcast_S_S100000 (constant (F := Ideal) S_ .f32 0x00000000#32)) := by
  after_results_simp <;> rfl
set_option maxRecDepth 65536 in
set_option maxHeartbeats 8000000 in
theorem first_root : StableHlo.after hostOps0 X (Proc.devRef .tc main_v13) = Host.rsqrt (F := Ideal) (degree (X (Proc.devRef .tc main_arg1))) := by
  after_results_simp <;> rfl
set_option maxRecDepth 65536 in
set_option maxHeartbeats 8000000 in
theorem first_zero : StableHlo.after hostOps0 X (Proc.devRef .tc main_cst_2) = constant (F := Ideal) S_ .f32 0x00000000#32 := by
  after_results_simp <;> rfl

set_option maxHeartbeats 4000000 in
theorem second_where : StableHlo.after hostOps0_1 X (Proc.devRef .tc main_v14)
    = whereElse (X (Proc.devRef .tc main_v12)) (X (Proc.devRef .tc main_v13)) (X (Proc.devRef .tc main_cst_2)) := by
  after_results_simp <;> rfl
theorem second_keeps_src : StableHlo.after hostOps0_1 X (Proc.devRef .tc main_v3) = X (Proc.devRef .tc main_v3) := by host_keeps
theorem second_keeps_dst : StableHlo.after hostOps0_1 X (Proc.devRef .tc main_v6) = X (Proc.devRef .tc main_v6) := by host_keeps

set_option maxHeartbeats 4000000 in
theorem third_weight : StableHlo.after hostOps0_2 X (Proc.devRef .tc main_v29)
    = weightOf (X (Proc.devRef .tc main_v14)) (X (Proc.devRef .tc main_v3)) (X (Proc.devRef .tc main_v6)) := by
  after_results_simp <;> rfl

theorem entry0_weight : entry0 X (Proc.devRef .tc main_v29) = edgeWeight (X (Proc.devRef .tc main_arg1)) := by
  show StableHlo.after hostOps0_2 (StableHlo.after hostOps0_1 (StableHlo.after hostOps0 X)) (Proc.devRef .tc main_v29) = _
  rw [third_weight, second_where, second_keeps_src, second_keeps_dst, first_src, first_dst, first_test, first_root, first_zero]
  rfl

theorem entry0_keeps (b : Ref sig .tc)
    (h0 : StableHlo.after hostOps0 X (Proc.devRef .tc b) = X (Proc.devRef .tc b))
    (h1 : StableHlo.after hostOps0_1 (StableHlo.after hostOps0 X) (Proc.devRef .tc b) = StableHlo.after hostOps0 X (Proc.devRef .tc b))
    (h2 : entry0 X (Proc.devRef .tc b) = StableHlo.after hostOps0_1 (StableHlo.after hostOps0 X) (Proc.devRef .tc b)) :
    entry0 X (Proc.devRef .tc b) = X (Proc.devRef .tc b) := h2.trans (h1.trans h0)

theorem entry0_arg0 : entry0 X (Proc.devRef .tc main_arg0) = X (Proc.devRef .tc main_arg0) :=
  entry0_keeps X main_arg0 (by host_keeps) (by host_keeps) (by host_keeps)
theorem entry0_arg3 : entry0 X (Proc.devRef .tc main_arg3) = X (Proc.devRef .tc main_arg3) :=
  entry0_keeps X main_arg3 (by host_keeps) (by host_keeps) (by host_keeps)
theorem entry0_arg4 : entry0 X (Proc.devRef .tc main_arg4) = X (Proc.devRef .tc main_arg4) :=
  entry0_keeps X main_arg4 (by host_keeps) (by host_keeps) (by host_keeps)
theorem entry0_arg5 : entry0 X (Proc.devRef .tc main_arg5) = X (Proc.devRef .tc main_arg5) :=
  entry0_keeps X main_arg5 (by host_keeps) (by host_keeps) (by host_keeps)
theorem entry0_arg6 : entry0 X (Proc.devRef .tc main_arg6) = X (Proc.devRef .tc main_arg6) :=
  entry0_keeps X main_arg6 (by host_keeps) (by host_keeps) (by host_keeps)
theorem entry0_arg8 : entry0 X (Proc.devRef .tc main_arg8) = X (Proc.devRef .tc main_arg8) :=
  entry0_keeps X main_arg8 (by host_keeps) (by host_keeps) (by host_keeps)

/-! ## Between the first product and the first rectifier -/

set_option maxHeartbeats 4000000 in
theorem layer1_propagated : StableHlo.after hostOps1 X (Proc.devRef .tc main_v43)
    = propagateWith (X (Proc.devRef .tc main_v3)) (X (Proc.devRef .tc main_v6)) (X (Proc.devRef .tc main_v29)) (X (Proc.devRef .tc main_v30)) := by
  after_results_simp <;> rfl

set_option maxHeartbeats 4000000 in
theorem layer1_bias : StableHlo.after hostOps1 X (Proc.devRef .tc main_v44)
    = shapeCast S1x128 (X (Proc.devRef .tc main_arg4)) shapeCasts_S128_S1x128 := by
  after_results_simp <;> rfl

theorem layer1_keeps_src : StableHlo.after hostOps1 X (Proc.devRef .tc main_v3) = X (Proc.devRef .tc main_v3) := by host_keeps
theorem layer1_keeps_dst : StableHlo.after hostOps1 X (Proc.devRef .tc main_v6) = X (Proc.devRef .tc main_v6) := by host_keeps
theorem layer1_keeps_weight : StableHlo.after hostOps1 X (Proc.devRef .tc main_v29) = X (Proc.devRef .tc main_v29) := by host_keeps
theorem layer1_keeps_arg4 : StableHlo.after hostOps1 X (Proc.devRef .tc main_arg4) = X (Proc.devRef .tc main_arg4) := by host_keeps
theorem layer1_keeps_arg5 : StableHlo.after hostOps1 X (Proc.devRef .tc main_arg5) = X (Proc.devRef .tc main_arg5) := by host_keeps
theorem layer1_keeps_arg6 : StableHlo.after hostOps1 X (Proc.devRef .tc main_arg6) = X (Proc.devRef .tc main_arg6) := by host_keeps
theorem layer1_keeps_arg8 : StableHlo.after hostOps1 X (Proc.devRef .tc main_arg8) = X (Proc.devRef .tc main_arg8) := by host_keeps

/-! ## Between the second product and the second rectifier -/

set_option maxHeartbeats 4000000 in
theorem layer2_propagated : StableHlo.after hostOps3 X (Proc.devRef .tc main_v59)
    = propagateWith (X (Proc.devRef .tc main_v3)) (X (Proc.devRef .tc main_v6)) (X (Proc.devRef .tc main_v29)) (X (Proc.devRef .tc main_v46)) := by
  after_results_simp <;> rfl

set_option maxHeartbeats 4000000 in
theorem layer2_bias : StableHlo.after hostOps3 X (Proc.devRef .tc main_v60)
    = shapeCast S1x128 (X (Proc.devRef .tc main_arg6)) shapeCasts_S128_S1x128 := by
  after_results_simp <;> rfl

theorem layer2_keeps_arg6 : StableHlo.after hostOps3 X (Proc.devRef .tc main_arg6) = X (Proc.devRef .tc main_arg6) := by host_keeps
theorem layer2_keeps_arg8 : StableHlo.after hostOps3 X (Proc.devRef .tc main_arg8) = X (Proc.devRef .tc main_arg8) := by host_keeps

/-! ## Before the last launch -/

set_option maxHeartbeats 4000000 in
theorem head_bias : StableHlo.after hostOps4 X (Proc.devRef .tc main_v62)
    = shapeCast S1x40 (X (Proc.devRef .tc main_arg8)) shapeCasts_S40_S1x40 := by
  after_results_simp <;> rfl

theorem head_keeps_hidden : StableHlo.after hostOps4 X (Proc.devRef .tc main_v61) = X (Proc.devRef .tc main_v61) := by host_keeps
theorem head_keeps_arg8 : StableHlo.after hostOps4 X (Proc.devRef .tc main_arg8) = X (Proc.devRef .tc main_arg8) := by host_keeps

end Cert.KernelIdeal.Stretches

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.Product0.lean ====
/-
  Launch 0 of the program: a matrix product, tiled over the rows.

  The launch reads an array `X` of 100000 rows and a 128 × 128 matrix `W`, and writes an array of 100000 rows. Grid
  point `t` (of 20) loads rows `5000 t … 5000 t + 4999` of `X` and the whole of `W`, multiplies them (the operands'
  change of format is the identity on extended reals, the accumulator starts at zero), and writes the 5000 × 128 product
  back to the same rows of the result. Entry `(p, q)` of the block product is `∑ k, X[5000 t + p, k] * W[k, q]`, which
  is entry `(5000 t + p, q)` of `X · W`: so each write-back is a block of `X · W`, the twenty blocks tile the
  result, and the result array ends holding `X · W` — whatever the arrays hold when the launch is entered (`V`).
-/
import proofs.«174355_j85005992722928_1_alg».proof.Proof.Gen.KernelIdeal.Frame
import proofs.«174355_j85005992722928_1_alg».proof.Proof.NetSpec
import proofs.«174355_j85005992722928_1_alg».proof.Proof.LibMatmulSum
import Idealize.ShloMosaic.Lib.Pipeline.Value
import Idealize.ShloMosaic.Lib.ValueIdx

set_option maxRecDepth 16384

noncomputable section

namespace Cert.KernelIdeal.Product0

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- What the body stores, at entry `(p, q)` of the block: the sum over `k` of the loaded blocks' products. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.GraphConv.matmul_zero_sum dot_S5000x128_S128x128_S5000x128_1_0_0_1_n_n none rfl rfl lhs_row lhs_col rhs_row rhs_col _ _ (ix2 p q)

/-- A block entry `y` whose row of the first operand is row `i 0` of `X`, and whose column of the second is column
    `i 1` of `W`, is entry `i` of `X · W`. -/
theorem block_eq (x0 : Vec Ideal S5000x128 .f32) (x1 : Vec Ideal S128x128 .f32)
    (X : S100000x128.Idx → EReal) (W : S128x128.Idx → EReal) (y : S5000x128.Idx) (i : S100000x128.Idx)
    (h0 : ∀ k : Fin 128, x0 (ix2 (y 0) k) = X (ix2 (i 0) k))
    (h1 : ∀ k : Fin 128, x1 (ix2 k (y 1)) = W (ix2 k (i 1))) :
    k0_pay1 x0 x1 y = linear X W i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  rw [pay_apply, linear_ix2]
  refine Finset.sum_congr rfl fun k _ => ?_
  have e0 : x0 (ix2 p k) = X (ix2 r k) := h0 k
  have e1 : x1 (ix2 k q) = W (ix2 k s) := h1 k
  rw [e0, e1]

/-! ## From the blocks to the array -/

/-- The printed index maps over the grid: the row-tiled windows are at block `(t, 0)`, the matrix at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `X · W`, `X` and `W` the input arrays as the launch finds them. -/
theorem flushed_eq (c : Dev nD) (t : Fin cfg0.N) :
    (dat0 V c).flushed 2 t = ((cfg0.win 2).blk t).view.read (Elt Ideal)
      (linear (V c main_arg0 : S100000x128.Idx → EReal) (V c main_arg3 : S128x128.Idx → EReal)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts t
  funext j
  refine block_eq (iblk0 V c 0 t) (iblk0 V c 1 t) (V c main_arg0) (V c main_arg3) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 2).blk t).view.emb j) 1))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every block index of the result's row axis is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- The twenty blocks tile the result: row `r` is in the block of the point whose block index is `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the launch is `X · W`. -/
theorem final (c : Dev nD) :
    (dat0 V c).arrAt 2 cfg0.N = linear (V c main_arg0 : S100000x128.Idx → EReal) (V c main_arg3 : S128x128.Idx → EReal) :=
  (dat0 V c).arrAt_eq_of_cover 2 _ (fun t _ => flushed_eq V c t) cover

end Cert.KernelIdeal.Product0

end
-- ==== Proof.Rectifier1.lean ====
/-
  Launch 1 of the program: a bias added and the rectifier applied, tiled over the rows.

  The launch reads an array `A` of 100000 rows and a one-row matrix `B` (the bias, 1 × 128), and writes an array of
  100000 rows. Grid point `t` (of 20) loads rows `5000 t … 5000 t + 4999` of `A` and the row `B`, and writes
  `max (A[r, k] + B[0, k]) 0` back to the same rows of the result. That is entry `(r, k)` of `biasRelu A b` with `b`
  the row of `B` read as a vector: each write-back is a block of it, the twenty blocks tile the result, and the result
  array ends holding it — whatever the arrays hold when the launch is entered (`V`).
-/
import proofs.«174355_j85005992722928_1_alg».proof.Proof.Gen.KernelIdeal.Frame
import proofs.«174355_j85005992722928_1_alg».proof.Proof.NetSpec
import Idealize.ShloMosaic.Lib.Pipeline.Value
import Idealize.ShloMosaic.Lib.ValueIdx
import Idealize.ShloMosaic.Lib.ValueLayout

set_option maxRecDepth 16384

noncomputable section

namespace Cert.KernelIdeal.Rectifier1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## What the body stores, at an entry -/

/-- At entry `(p, k)` of the block: the loaded entry plus the bias row's entry `k`, against zero. -/
theorem pay_apply (x0 : Vec Ideal S5000x128 .f32) (x1 : Vec Ideal S1x128 .f32) (p : Fin 5000) (k : Fin 128) :
    k1_pay1 x0 x1 (ix2 p k) = max (x0 (ix2 p k) + x1 (ix2 (0 : Fin 1) k)) (Ideal.ofBits .f32 0x00000000#32) := by
  unfold k1_pay1
  rw [maximumf_apply, addf_apply, broadcast_apply, shapeCast_self, broadcastTo_1b_ab_apply, shapeCast_self]
  rfl

/-- A block entry `y` that is entry `i` of `A`, the loaded row being `B`'s, is entry `i` of `biasRelu A (rowOf B)`. -/
theorem block_eq (x0 : Vec Ideal S5000x128 .f32) (x1 : Vec Ideal S1x128 .f32)
    (A : S100000x128.Idx → EReal) (B : S1x128.Idx → EReal) (y : S5000x128.Idx) (i : S100000x128.Idx)
    (h0 : x0 y = A i) (h1 : x1 (ix2 (0 : Fin 1) (y 1)) = B (ix2 (0 : Fin 1) (i 1))) :
    k1_pay1 x0 x1 y = biasRelu A (rowOf B) i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  rw [pay_apply, biasRelu_ix2, rowOf_ix1]
  have e0 : x0 (ix2 p q) = A (ix2 r s) := h0
  have e1 : x1 (ix2 (0 : Fin 1) q) = B (ix2 (0 : Fin 1) s) := h1
  rw [e0, e1]

/-! ## From the blocks to the array -/

/-- The printed index maps over the grid: the row-tiled windows are at block `(t, 0)`, the bias row at block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRelu A (rowOf B)`, `A` and `B` the input arrays as the launch
    finds them. -/
theorem flushed_eq (c : Dev nD) (t : Fin cfg1.N) :
    (dat1 V c).flushed 2 t = ((cfg1.win 2).blk t).view.read (Elt Ideal)
      (biasRelu (V c main_v43 : S100000x128.Idx → EReal) (rowOf (V c main_v44 : S1x128.Idx → EReal))) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e00, e01, e10, e11, e20, e21⟩ := idx_facts t
  funext j
  refine block_eq (iblk1 V c 0 t) (iblk1 V c 1 t) (V c main_v43) (V c main_v44) j (((cfg1.win 2).blk t).view.emb j) ?_ ?_
  · show V c main_v43 (((cfg1.win 0).blk t).view.emb j) = V c main_v43 (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_v44 (((cfg1.win 1).blk t).view.emb (ix2 (0 : Fin 1) (j 1))) = V c main_v44 (ix2 (0 : Fin 1) ((((cfg1.win 2).blk t).view.emb j) 1))
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the result array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every block index of the result's row axis is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

/-- The twenty blocks tile the result: row `r` is in the block of the point whose block index is `r / 5000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the launch is `biasRelu A (rowOf B)`. -/
theorem final (c : Dev nD) :
    (dat1 V c).arrAt 2 cfg1.N = biasRelu (V c main_v43 : S100000x128.Idx → EReal) (rowOf (V c main_v44 : S1x128.Idx → EReal)) :=
  (dat1 V c).arrAt_eq_of_cover 2 _ (fun t _ => flushed_eq V c t) cover

end Cert.KernelIdeal.Rectifier1

end
-- ==== Proof.Product2.lean ====
/-
  Launch 2 of the program: a matrix product, tiled over the rows.

  The launch reads an array `X` of 100000 rows and a 128 × 128 matrix `W`, and writes an array of 100000 rows. Grid
  point `t` (of 20) loads rows `5000 t … 5000 t + 4999` of `X` and the whole of `W`, multiplies them (the operands'
  change of format is the identity on extended reals, the accumulator starts at zero), and writes the 5000 × 128 product
  back to the same rows of the result. Entry `(p, q)` of the block product is `∑ k, X[5000 t + p, k] * W[k, q]`, which
  is entry `(5000 t + p, q)` of `X · W`: so each write-back is a block of `X · W`, the twenty blocks tile the
  result, and the result array ends holding `X · W` — whatever the arrays hold when the launch is entered (`V`).
-/
import proofs.«174355_j85005992722928_1_alg».proof.Proof.Gen.KernelIdeal.Frame
import proofs.«174355_j85005992722928_1_alg».proof.Proof.NetSpec
import proofs.«174355_j85005992722928_1_alg».proof.Proof.LibMatmulSum
import Idealize.ShloMosaic.Lib.Pipeline.Value
import Idealize.ShloMosaic.Lib.ValueIdx

set_option maxRecDepth 16384

noncomputable section

namespace Cert.KernelIdeal.Product2

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- What the body stores, at entry `(p, q)` of the block: the sum over `k` of the loaded blocks' products. -/
theorem pay_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  refine (Cert.GraphConv.matmul_zero_sum dot_S5000x128_S128x128_S5000x128_1_0_0_1_n_n none rfl rfl lhs_row lhs_col rhs_row rhs_col _ _ (ix2 p q)).trans ?_
  refine Finset.sum_congr rfl fun k _ => ?_
  show shapeCast S5000x128 x0 shapeCasts_S5000x128_S5000x128 (ix2 p k) * x1 (ix2 k q) = _
  rw [shapeCast_self]

/-- A block entry `y` whose row of the first operand is row `i 0` of `X`, and whose column of the second is column
    `i 1` of `W`, is entry `i` of `X · W`. -/
theorem block_eq (x0 : Vec Ideal S5000x128 .f32) (x1 : Vec Ideal S128x128 .f32)
    (X : S100000x128.Idx → EReal) (W : S128x128.Idx → EReal) (y : S5000x128.Idx) (i : S100000x128.Idx)
    (h0 : ∀ k : Fin 128, x0 (ix2 (y 0) k) = X (ix2 (i 0) k))
    (h1 : ∀ k : Fin 128, x1 (ix2 k (y 1)) = W (ix2 k (i 1))) :
    k2_pay1 x0 x1 y = linear X W i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  rw [pay_apply, linear_ix2]
  refine Finset.sum_congr rfl fun k _ => ?_
  have e0 : x0 (ix2 p k) = X (ix2 r k) := h0 k
  have e1 : x1 (ix2 k q) = W (ix2 k s) := h1 k
  rw [e0, e1]

/-! ## From the blocks to the array -/

/-- The printed index maps over the grid: the row-tiled windows are at block `(t, 0)`, the matrix at block `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `X · W`, `X` and `W` the input arrays as the launch finds them. -/
theorem flushed_eq (c : Dev nD) (t : Fin cfg2.N) :
    (dat2 V c).flushed 2 t = ((cfg2.win 2).blk t).view.read (Elt Ideal)
      (linear (V c main_v45 : S100000x128.Idx → EReal) (V c main_arg5 : S128x128.Idx → EReal)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e00, e01, e10, e11, e20, e21⟩ := idx_facts t
  funext j
  refine block_eq (iblk2 V c 0 t) (iblk2 V c 1 t) (V c main_v45) (V c main_arg5) j (((cfg2.win 2).blk t).view.emb j) (fun k => ?_) (fun k => ?_)
  · show V c main_v45 (((cfg2.win 0).blk t).view.emb (ix2 (j 0) k)) = V c main_v45 (ix2 ((((cfg2.win 2).blk t).view.emb j) 0) k)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg5 (((cfg2.win 1).blk t).view.emb (ix2 k (j 1))) = V c main_arg5 (ix2 k ((((cfg2.win 2).blk t).view.emb j) 1))
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the result array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Every block index of the result's row axis is some point's. -/
theorem idx_onto : ∀ q0 : Fin 20, ∃ t : Fin cfg2.N, win2_2.index t = ![q0.val, 0] :=
  (by decide +kernel : ∀ q0 : Fin 20, ∃ t : Fin grid2.N, win2_2.index t = ![q0.val, 0])

/-- The twenty blocks tile the result: row `r` is in the block of the point whose block index is `r / 5000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the launch is `X · W`. -/
theorem final (c : Dev nD) :
    (dat2 V c).arrAt 2 cfg2.N = linear (V c main_v45 : S100000x128.Idx → EReal) (V c main_arg5 : S128x128.Idx → EReal) :=
  (dat2 V c).arrAt_eq_of_cover 2 _ (fun t _ => flushed_eq V c t) cover

end Cert.KernelIdeal.Product2

end
-- ==== Proof.Rectifier3.lean ====
/-
  Launch 3 of the program: a bias added and the rectifier applied, tiled over the rows.

  The launch reads an array `A` of 100000 rows and a one-row matrix `B` (the bias, 1 × 128), and writes an array of
  100000 rows. Grid point `t` (of 20) loads rows `5000 t … 5000 t + 4999` of `A` and the row `B`, and writes
  `max (A[r, k] + B[0, k]) 0` back to the same rows of the result. That is entry `(r, k)` of `biasRelu A b` with `b`
  the row of `B` read as a vector: each write-back is a block of it, the twenty blocks tile the result, and the result
  array ends holding it — whatever the arrays hold when the launch is entered (`V`).
-/
import proofs.«174355_j85005992722928_1_alg».proof.Proof.Gen.KernelIdeal.Frame
import proofs.«174355_j85005992722928_1_alg».proof.Proof.NetSpec
import Idealize.ShloMosaic.Lib.Pipeline.Value
import Idealize.ShloMosaic.Lib.ValueIdx
import Idealize.ShloMosaic.Lib.ValueLayout

set_option maxRecDepth 16384

noncomputable section

namespace Cert.KernelIdeal.Rectifier3

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## What the body stores, at an entry -/

/-- At entry `(p, k)` of the block: the loaded entry plus the bias row's entry `k`, against zero. -/
theorem pay_apply (x0 : Vec Ideal S5000x128 .f32) (x1 : Vec Ideal S1x128 .f32) (p : Fin 5000) (k : Fin 128) :
    k3_pay1 x0 x1 (ix2 p k) = max (x0 (ix2 p k) + x1 (ix2 (0 : Fin 1) k)) (Ideal.ofBits .f32 0x00000000#32) := by
  unfold k3_pay1
  rw [maximumf_apply, addf_apply, broadcast_apply, shapeCast_self, broadcastTo_1b_ab_apply, shapeCast_self]
  rfl

/-- A block entry `y` that is entry `i` of `A`, the loaded row being `B`'s, is entry `i` of `biasRelu A (rowOf B)`. -/
theorem block_eq (x0 : Vec Ideal S5000x128 .f32) (x1 : Vec Ideal S1x128 .f32)
    (A : S100000x128.Idx → EReal) (B : S1x128.Idx → EReal) (y : S5000x128.Idx) (i : S100000x128.Idx)
    (h0 : x0 y = A i) (h1 : x1 (ix2 (0 : Fin 1) (y 1)) = B (ix2 (0 : Fin 1) (i 1))) :
    k3_pay1 x0 x1 y = biasRelu A (rowOf B) i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  rw [pay_apply, biasRelu_ix2, rowOf_ix1]
  have e0 : x0 (ix2 p q) = A (ix2 r s) := h0
  have e1 : x1 (ix2 (0 : Fin 1) q) = B (ix2 (0 : Fin 1) s) := h1
  rw [e0, e1]

/-! ## From the blocks to the array -/

/-- The printed index maps over the grid: the row-tiled windows are at block `(t, 0)`, the bias row at block `(0, 0)`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `biasRelu A (rowOf B)`, `A` and `B` the input arrays as the launch
    finds them. -/
theorem flushed_eq (c : Dev nD) (t : Fin cfg3.N) :
    (dat3 V c).flushed 2 t = ((cfg3.win 2).blk t).view.read (Elt Ideal)
      (biasRelu (V c main_v59 : S100000x128.Idx → EReal) (rowOf (V c main_v60 : S1x128.Idx → EReal))) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e00, e01, e10, e11, e20, e21⟩ := idx_facts t
  funext j
  refine block_eq (iblk3 V c 0 t) (iblk3 V c 1 t) (V c main_v59) (V c main_v60) j (((cfg3.win 2).blk t).view.emb j) ?_ ?_
  · show V c main_v59 (((cfg3.win 0).blk t).view.emb j) = V c main_v59 (((cfg3.win 2).blk t).view.emb j)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · show V c main_v60 (((cfg3.win 1).blk t).view.emb (ix2 (0 : Fin 1) (j 1))) = V c main_v60 (ix2 (0 : Fin 1) ((((cfg3.win 2).blk t).view.emb j) 1))
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- An index of the result array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Every block index of the result's row axis is some point's. -/
theorem idx_onto : ∀ q0 : Fin 20, ∃ t : Fin cfg3.N, win3_2.index t = ![q0.val, 0] :=
  (by decide +kernel : ∀ q0 : Fin 20, ∃ t : Fin grid3.N, win3_2.index t = ![q0.val, 0])

/-- The twenty blocks tile the result: row `r` is in the block of the point whose block index is `r / 5000`. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the launch is `biasRelu A (rowOf B)`. -/
theorem final (c : Dev nD) :
    (dat3 V c).arrAt 2 cfg3.N = biasRelu (V c main_v59 : S100000x128.Idx → EReal) (rowOf (V c main_v60 : S1x128.Idx → EReal)) :=
  (dat3 V c).arrAt_eq_of_cover 2 _ (fun t _ => flushed_eq V c t) cover

end Cert.KernelIdeal.Rectifier3

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.Head4.lean ====
/-
  Launch 4 of the program: the classification head, tiled over the rows.

  The launch reads an array `H` of 100000 rows, a 128 × 40 matrix `W` and a one-row matrix `B` (the bias, 1 × 40), and
  writes an array of 100000 × 40. Grid point `t` (of 20) loads rows `5000 t … 5000 t + 4999` of `H`, all of `W` and
  `B`, forms the logits `ℓ = Hblock · W + B` (the operands' change of format is the identity on extended reals, the
  accumulator starts at zero), takes each row's maximum `M` (a fold of `max` from `-∞`), and writes
  `(ℓ − M) − log (∑ exp (ℓ − M))`. So what the body stores is `head` of the loaded blocks themselves — the same
  function, at 5000 rows —, and since `head` at a row depends on that row of its first argument only, the stored block is
  a block of `head H W b` (`b` the row of `B` read as a vector). The twenty blocks tile the result, which ends holding
  `head H W b` — whatever the arrays hold when the launch is entered (`V`).
-/
import proofs.«174355_j85005992722928_1_alg».proof.Proof.Gen.KernelIdeal.Frame
import proofs.«174355_j85005992722928_1_alg».proof.Proof.NetSpec
import proofs.«174355_j85005992722928_1_alg».proof.Proof.LibMatmulSum
import proofs.«174355_j85005992722928_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head4

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The block's logits -/

theorem lhs_row (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl
theorem lhs_col (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem rhs_row (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem rhs_col (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-- The logits as the body forms them from the loaded blocks: the product into a zero accumulator, plus the bias row
    laid along every row. -/
def blockLogits (x0 : Vec Ideal S5000x128 .f32) (x1 : Vec Ideal S128x40 .f32) (x2 : Vec Ideal S1x40 .f32) : FVec Ideal S5000x40 .f32 :=
  addf (matmul dot_S5000x128_S128x40_S5000x40_1_0_0_1_n_n none
      (truncf .bf16 (shapeCast S5000x128 x0 shapeCasts_S5000x128_S5000x128) bitsLt_bf16_f32) (truncf .bf16 x1 bitsLt_bf16_f32)
      (constant (F := Ideal) S5000x40 .f32 0x00000000#32))
    (broadcastTo S5000x40 (shapeCast S1x40 x2 shapeCasts_S1x40_S1x40) broadcasts_S1x40_S5000x40)

/-- At `(p, q)` they are `∑ k, x0[p, k] * x1[k, q] + x2[0, q]`. -/
theorem blockLogits_apply (x0 : Vec Ideal S5000x128 .f32) (x1 : Vec Ideal S128x40 .f32) (x2 : Vec Ideal S1x40 .f32) (p : Fin 5000) (q : Fin 40) :
    blockLogits x0 x1 x2 (ix2 p q) = biasAdd (linear x0 x1) (rowOf x2) (ix2 p q) := by
  unfold blockLogits
  rw [addf_apply, biasAdd_ix2, linear_ix2, rowOf_ix1, broadcastTo_1b_ab_apply, shapeCast_self, shapeCast_self]
  refine congrArg (· + x2 (ix2 (0 : Fin 1) q)) ?_
  refine (Cert.GraphConv.matmul_zero_sum dot_S5000x128_S128x40_S5000x40_1_0_0_1_n_n none rfl rfl lhs_row lhs_col rhs_row rhs_col _ _ (ix2 p q)).trans ?_
  rfl

/-! ## The log-softmax of a block of logits -/

/-- A row's maximum as the body takes it, laid out as a column: the fold of `max` from `-∞` over the row. -/
theorem maxColumn_apply (L : FVec Ideal S5000x40 .f32) (p : Fin 5000) :
    shapeCast S5000x1 (multiReduction .maximumf [1] S5000 L 0xFF800000#32 reduces_S5000x40_S5000 (.inl rfl) rfl) shapeCasts_S5000_S5000x1 (ix2 p (0 : Fin 1))
      = rowMax L p := by
  refine (Cert.LibKeepdims.shapeCast_a_a1_apply _ shapeCasts_S5000_S5000x1 p (0 : Fin 1)).trans ?_
  refine (Ideal.multiReduction_maximumf_single L 0xFF800000#32 reduces_S5000x40_S5000 (.inl rfl) rfl (ix1 p)).trans ?_
  unfold rowMax
  refine Finset.fold_congr fun q _ => ?_
  exact congrArg L (funext fun d => Fin.ext (by match d with | ⟨0, _⟩ => rfl | ⟨1, _⟩ => rfl))

/-- A row's sum as the body takes it, laid out as a column. -/
theorem sumColumn_apply (E : FVec Ideal S5000x40 .f32) (p : Fin 5000) :
    shapeCast S5000x1 (multiReduction .add [1] S5000 E 0x00000000#32 reduces_S5000x40_S5000 (.inl rfl) rfl) shapeCasts_S5000_S5000x1 (ix2 p (0 : Fin 1))
      = ∑ q : Fin 40, E (ix2 p q) := by
  refine (Cert.LibKeepdims.shapeCast_a_a1_apply _ shapeCasts_S5000_S5000x1 p (0 : Fin 1)).trans ?_
  exact Cert.LibKeepdims.add_axis1_apply E 0x00000000#32 reduces_S5000x40_S5000 (.inl rfl) rfl p

/-- The rest of the body from the logits on: subtract the row maximum, exponentiate, sum, take the logarithm, subtract. -/
def blockLogSoftmax (L : FVec Ideal S5000x40 .f32) : FVec Ideal S5000x40 .f32 :=
  subf (subf L (broadcastTo S5000x40 (shapeCast S5000x1 (multiReduction .maximumf [1] S5000 L 0xFF800000#32 reduces_S5000x40_S5000 (.inl rfl) rfl) shapeCasts_S5000_S5000x1) broadcasts_S5000x1_S5000x40))
    (broadcastTo S5000x40 (log (shapeCast S5000x1 (multiReduction .add [1] S5000
      (exp (subf L (broadcastTo S5000x40 (shapeCast S5000x1 (multiReduction .maximumf [1] S5000 L 0xFF800000#32 reduces_S5000x40_S5000 (.inl rfl) rfl) shapeCasts_S5000_S5000x1) broadcasts_S5000x1_S5000x40)))
      0x00000000#32 reduces_S5000x40_S5000 (.inl rfl) rfl) shapeCasts_S5000_S5000x1)) broadcasts_S5000x1_S5000x40)

/-- The shifted logits at an entry. -/
theorem shifted_apply (L : FVec Ideal S5000x40 .f32) (p : Fin 5000) (q : Fin 40) :
    subf L (broadcastTo S5000x40 (shapeCast S5000x1 (multiReduction .maximumf [1] S5000 L 0xFF800000#32 reduces_S5000x40_S5000 (.inl rfl) rfl) shapeCasts_S5000_S5000x1) broadcasts_S5000x1_S5000x40) (ix2 p q)
      = L (ix2 p q) - rowMax L p := by
  rw [subf_apply, Cert.LibKeepdims.broadcastTo_a1_ab_apply, maxColumn_apply]

theorem blockLogSoftmax_apply (L : FVec Ideal S5000x40 .f32) (p : Fin 5000) (c : Fin 40) :
    blockLogSoftmax L (ix2 p c) = logSoftmax L (ix2 p c) := by
  unfold blockLogSoftmax
  rw [subf_apply, shifted_apply, Cert.LibKeepdims.broadcastTo_a1_ab_apply, logSoftmax_ix2]
  refine congrArg (fun z => L (ix2 p c) - rowMax L p - z) ?_
  show Ideal.log (shapeCast S5000x1 _ shapeCasts_S5000_S5000x1 (ix2 p (0 : Fin 1))) = Ideal.log (rowExpSum L p)
  rw [sumColumn_apply]
  unfold rowExpSum
  refine congrArg Ideal.log (Finset.sum_congr rfl fun q _ => ?_)
  show Ideal.exp (subf L _ (ix2 p q)) = _
  rw [shifted_apply]

/-- What the body stores is `head` of the loaded blocks. -/
theorem pay_eq (x0 : Vec Ideal S5000x128 .f32) (x1 : Vec Ideal S128x40 .f32) (x2 : Vec Ideal S1x40 .f32) (p : Fin 5000) (c : Fin 40) :
    k4_pay1 x0 x1 x2 (ix2 p c) = head x0 x1 (rowOf x2) (ix2 p c) := by
  have e : k4_pay1 x0 x1 x2 = blockLogSoftmax (blockLogits x0 x1 x2) := rfl
  rw [e, blockLogSoftmax_apply]
  unfold head
  exact logSoftmax_congr_row _ _ p p c fun q => blockLogits_apply x0 x1 x2 p q

/-- A block entry `y` whose row of the first operand is row `i 0` of `H`, the other two operands being `W` and `B`,
    is entry `i` of `head H W (rowOf B)`. -/
theorem block_eq (x0 : Vec Ideal S5000x128 .f32) (x1 : Vec Ideal S128x40 .f32) (x2 : Vec Ideal S1x40 .f32)
    (H : S100000x128.Idx → EReal) (W : S128x40.Idx → EReal) (B : S1x40.Idx → EReal) (y : S5000x40.Idx) (i : S100000x40.Idx)
    (hc : (y 1).val = (i 1).val)
    (h0 : ∀ k : Fin 128, x0 (ix2 (y 0) k) = H (ix2 (i 0) k))
    (h1 : ∀ (k : Fin 128) (q : Fin 40), x1 (ix2 k q) = W (ix2 k q))
    (h2 : ∀ q : Fin 40, x2 (ix2 (0 : Fin 1) q) = B (ix2 (0 : Fin 1) q)) :
    k4_pay1 x0 x1 x2 y = head H W (rowOf B) i := by
  obtain ⟨p, c, rfl⟩ : ∃ (p : Fin 5000) (c : Fin 40), y = ix2 p c := ⟨y 0, y 1, eq_ix2 y⟩
  obtain ⟨r, s, rfl⟩ : ∃ (r : Fin 100000) (s : Fin 40), i = ix2 r s := ⟨i 0, i 1, eq_ix2 i⟩
  obtain rfl : c = s := Fin.ext hc
  rw [pay_eq]
  unfold head
  refine logSoftmax_congr_row _ _ p r c fun q => ?_
  rw [biasAdd_ix2, biasAdd_ix2, linear_ix2, linear_ix2, rowOf_ix1, rowOf_ix1, h2 q]
  refine congrArg (· + B (ix2 (0 : Fin 1) q)) (Finset.sum_congr rfl fun k _ => ?_)
  have e0 : x0 (ix2 p k) = H (ix2 r k) := h0 k
  rw [e0, h1 k q]

/-! ## From the blocks to the array -/

/-- The printed index maps over the grid: the row-tiled windows are at block `(t, 0)`, the others at block `(0, 0)`. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of `head H W (rowOf B)`, the arrays as the launch finds them. -/
theorem flushed_eq (c : Dev nD) (t : Fin cfg4.N) :
    (dat4 V c).flushed 3 t = ((cfg4.win 3).blk t).view.read (Elt Ideal)
      (head (V c main_v61 : S100000x128.Idx → EReal) (V c main_arg7 : S128x40.Idx → EReal) (rowOf (V c main_v62 : S1x40.Idx → EReal))) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x40) hz, View.ld_unit_zero (S := S1x40) hz]
  obtain ⟨e00, e01, e10, e11, e20, e21, e30, e31⟩ := idx_facts t
  funext j
  refine block_eq (iblk4 V c 0 t) (iblk4 V c 1 t) (iblk4 V c 2 t) (V c main_v61) (V c main_arg7) (V c main_v62) j (((cfg4.win 3).blk t).view.emb j) ?_ (fun k => ?_) (fun k q => ?_) (fun q => ?_)
  · show (j 1).val = win4_3.index t (1 : Fin 2) * 40 + 1 * (j 1).val
    omega
  · show V c main_v61 (((cfg4.win 0).blk t).view.emb (ix2 (j 0) k)) = V c main_v61 (ix2 ((((cfg4.win 3).blk t).view.emb j) 0) k)
    refine congrArg _ (funext fun a => Fin.ext ?_)
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * k.val = k.val; omega
  · show V c main_arg7 (((cfg4.win 1).blk t).view.emb (ix2 k q)) = V c main_arg7 (ix2 k q)
    refine congrArg _ (funext fun a => Fin.ext ?_)
    match a with
    | ⟨0, _⟩ => show win4_1.index t (0 : Fin 2) * 128 + 1 * k.val = k.val; omega
    | ⟨1, _⟩ => show win4_1.index t (1 : Fin 2) * 40 + 1 * q.val = q.val; omega
  · show V c main_v62 (((cfg4.win 2).blk t).view.emb (ix2 (0 : Fin 1) q)) = V c main_v62 (ix2 (0 : Fin 1) q)
    refine congrArg _ (funext fun a => Fin.ext ?_)
    match a with
    | ⟨0, _⟩ => show win4_2.index t (0 : Fin 2) * 1 + 1 * 0 = 0; omega
    | ⟨1, _⟩ => show win4_2.index t (1 : Fin 2) * 40 + 1 * q.val = q.val; omega

/-- An index of the result array is in point `t`'s block iff each coordinate is in the block's range on its axis. -/
theorem mem_blk (t : Fin cfg4.N) (i : S100000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v63).slice (win4_3.rect t)).set ↔ _
  rw [View.set_slice_whole, Rect.mem_set_unit]
  exact Iff.rfl

/-- Every block index of the result's row axis is some point's. -/
theorem idx_onto : ∀ q0 : Fin 20, ∃ t : Fin cfg4.N, win4_3.index t = ![q0.val, 0] :=
  (by decide +kernel : ∀ q0 : Fin 20, ∃ t : Fin grid4.N, win4_3.index t = ![q0.val, 0])

/-- The twenty blocks tile the result: row `r` is in the block of the point whose block index is `r / 5000`. -/
theorem cover (i : S100000x40.Idx) :
    ∃ t : Fin cfg4.N, (cfg4.win 3).flush t = true ∧ i ∈ ((cfg4.win 3).blk t).view.set := by
  have hi0 : (i 0).val < 100000 := (i 0).isLt
  have hi1 : (i 1).val < 40 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 40 ≤ (i 1).val ∧ (i 1).val < win4_3.index t (1 : Fin 2) * 40 + 40; omega

/-- The result array after the launch is `head H W (rowOf B)`. -/
theorem final (c : Dev nD) :
    (dat4 V c).arrAt 3 cfg4.N = head (V c main_v61 : S100000x128.Idx → EReal) (V c main_arg7 : S128x40.Idx → EReal) (rowOf (V c main_v62 : S1x40.Idx → EReal)) :=
  (dat4 V c).arrAt_eq_of_cover 3 _ (fun t _ => flushed_eq V c t) cover

end Cert.KernelIdeal.Head4

end
-- ==== Proof.KernelValue.lean ====
/-
  The kernel program's result as the network function of its arguments.

  The run ends with the result array at the last segment boundary's contents. Walking the boundaries back: the last
  launch leaves `head` of its inputs; its bias input is the head's bias reshaped to one row, its hidden input what the
  second rectifier launch left, `biasRelu` of the second propagated product and the second bias; that product is
  `linear` of what the first rectifier launch left and the second weight matrix; and so on down to the arguments. The
  source ids, destination ids and edge weights are computed once, before the first launch, from the edge list, and no
  launch or later stretch writes them, so both propagation steps are the named one of the edge list. A bias reshaped
  to one row and read back as a vector is the bias.
-/
import proofs.«174355_j85005992722928_1_alg».proof.Proof.Gen.KernelIdeal.Frame
import proofs.«174355_j85005992722928_1_alg».proof.Proof.NetSpec
import proofs.«174355_j85005992722928_1_alg».proof.Proof.HostPieces
import proofs.«174355_j85005992722928_1_alg».proof.Proof.HostStretches
import proofs.«174355_j85005992722928_1_alg».proof.Proof.Product0
import proofs.«174355_j85005992722928_1_alg».proof.Proof.Rectifier1
import proofs.«174355_j85005992722928_1_alg».proof.Proof.Product2
import proofs.«174355_j85005992722928_1_alg».proof.Proof.Rectifier3
import proofs.«174355_j85005992722928_1_alg».proof.Proof.Head4
import Idealize.ShloMosaic.Lib.ValueIdx
import Idealize.ShloMosaic.Lib.ValueLayout

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.Gcn Cert.ReferenceIdeal.Pieces
open Idealize.ShloMosaic.Pipeline (Dat)

variable (m : (ℓ : Loc nD τ sig) → Buf (Elt Ideal) ℓ) (ρ : Dev nD → PrngReg) (c : Dev nD)

/-- A vector reshaped to one row and read back as a vector is the vector. -/
theorem rowOf_reshape {K : ℕ} (b : FVec Ideal ⟨1, ![K]⟩ .f32) (h : (⟨1, ![K]⟩ : Shape).ShapeCasts ⟨2, ![1, K]⟩) :
    rowOf (shapeCast ⟨2, ![1, K]⟩ b h) = b := by
  funext i
  obtain ⟨k, rfl⟩ : ∃ k : Fin K, i = ix1 k := ⟨i 0, eq_ix1 i⟩
  rw [rowOf_ix1, shapeCast_a_1a_apply]

/-! ## Before the first launch -/

theorem src3 : W3 m ρ c (Proc.devRef .tc main_v3) = srcIds (m ((c.tc : Thread nD τ).loc main_arg1)) :=
  Stretches.entry0_src (W0 m ρ c)
theorem dst3 : W3 m ρ c (Proc.devRef .tc main_v6) = dstIds (m ((c.tc : Thread nD τ).loc main_arg1)) :=
  Stretches.entry0_dst (W0 m ρ c)
theorem weight3 : W3 m ρ c (Proc.devRef .tc main_v29) = edgeWeight (m ((c.tc : Thread nD τ).loc main_arg1)) :=
  Stretches.entry0_weight (W0 m ρ c)
theorem arg0_3 : W3 m ρ c (Proc.devRef .tc main_arg0) = m ((c.tc : Thread nD τ).loc main_arg0) := Stretches.entry0_arg0 (W0 m ρ c)
theorem arg3_3 : W3 m ρ c (Proc.devRef .tc main_arg3) = m ((c.tc : Thread nD τ).loc main_arg3) := Stretches.entry0_arg3 (W0 m ρ c)
theorem arg4_3 : W3 m ρ c (Proc.devRef .tc main_arg4) = m ((c.tc : Thread nD τ).loc main_arg4) := Stretches.entry0_arg4 (W0 m ρ c)
theorem arg5_3 : W3 m ρ c (Proc.devRef .tc main_arg5) = m ((c.tc : Thread nD τ).loc main_arg5) := Stretches.entry0_arg5 (W0 m ρ c)
theorem arg6_3 : W3 m ρ c (Proc.devRef .tc main_arg6) = m ((c.tc : Thread nD τ).loc main_arg6) := Stretches.entry0_arg6 (W0 m ρ c)
theorem arg8_3 : W3 m ρ c (Proc.devRef .tc main_arg8) = m ((c.tc : Thread nD τ).loc main_arg8) := Stretches.entry0_arg8 (W0 m ρ c)

/-! ## The first layer -/

/-- The first launch leaves `x · W₁`. -/
theorem product1 : W4 m ρ c (Proc.devRef .tc main_v30)
    = linear (m ((c.tc : Thread nD τ).loc main_arg0) : FVec Ideal S100000x128 .f32) (m ((c.tc : Thread nD τ).loc main_arg3) : FVec Ideal S128x128 .f32) := by
  have h : W4 m ρ c (Proc.devRef .tc main_v30) = (dat0 (V3 m ρ) c).arrAt 2 cfg0.N := W4_arr m ρ c 2
  rw [h, Product0.final (V3 m ρ) c]
  show linear (W3 m ρ c (Proc.devRef .tc main_arg0)) (W3 m ρ c (Proc.devRef .tc main_arg3)) = _
  rw [arg0_3, arg3_3]

theorem src4 : W4 m ρ c (Proc.devRef .tc main_v3) = srcIds (m ((c.tc : Thread nD τ).loc main_arg1)) :=
  (W4_of_ne m ρ c main_v3 (by decide)).trans (src3 m ρ c)
theorem dst4 : W4 m ρ c (Proc.devRef .tc main_v6) = dstIds (m ((c.tc : Thread nD τ).loc main_arg1)) :=
  (W4_of_ne m ρ c main_v6 (by decide)).trans (dst3 m ρ c)
theorem weight4 : W4 m ρ c (Proc.devRef .tc main_v29) = edgeWeight (m ((c.tc : Thread nD τ).loc main_arg1)) :=
  (W4_of_ne m ρ c main_v29 (by decide)).trans (weight3 m ρ c)

/-- The stretch after it propagates the product. -/
theorem propagated1 : W5 m ρ c (Proc.devRef .tc main_v43)
    = propagate (m ((c.tc : Thread nD τ).loc main_arg1))
        (linear (m ((c.tc : Thread nD τ).loc main_arg0) : FVec Ideal S100000x128 .f32) (m ((c.tc : Thread nD τ).loc main_arg3) : FVec Ideal S128x128 .f32)) := by
  show StableHlo.after hostOps1 (W4 m ρ c) (Proc.devRef .tc main_v43) = _
  rw [Stretches.layer1_propagated (W4 m ρ c), src4, dst4, weight4, product1]
  rfl

/-- … and reshapes the first bias to one row. -/
theorem biasRow1 : W5 m ρ c (Proc.devRef .tc main_v44)
    = shapeCast S1x128 (m ((c.tc : Thread nD τ).loc main_arg4) : FVec Ideal S128 .f32) shapeCasts_S128_S1x128 := by
  show StableHlo.after hostOps1 (W4 m ρ c) (Proc.devRef .tc main_v44) = _
  rw [Stretches.layer1_bias (W4 m ρ c), W4_of_ne m ρ c main_arg4 (by decide), arg4_3]

/-- The first rectifier launch leaves the first hidden layer. -/
theorem hidden1 : W6 m ρ c (Proc.devRef .tc main_v45)
    = biasRelu (propagate (m ((c.tc : Thread nD τ).loc main_arg1))
        (linear (m ((c.tc : Thread nD τ).loc main_arg0) : FVec Ideal S100000x128 .f32) (m ((c.tc : Thread nD τ).loc main_arg3) : FVec Ideal S128x128 .f32)))
        (m ((c.tc : Thread nD τ).loc main_arg4) : FVec Ideal S128 .f32) := by
  have h : W6 m ρ c (Proc.devRef .tc main_v45) = (dat1 (V5 m ρ) c).arrAt 2 cfg1.N := W6_arr m ρ c 2
  rw [h, Rectifier1.final (V5 m ρ) c]
  show biasRelu (W5 m ρ c (Proc.devRef .tc main_v43)) (rowOf (W5 m ρ c (Proc.devRef .tc main_v44))) = _
  rw [propagated1, biasRow1, rowOf_reshape]

/-! ## The second layer -/

theorem arg5_6 : W6 m ρ c (Proc.devRef .tc main_arg5) = m ((c.tc : Thread nD τ).loc main_arg5) :=
  (W6_of_ne m ρ c main_arg5 (by decide)).trans ((Stretches.layer1_keeps_arg5 (W4 m ρ c)).trans ((W4_of_ne m ρ c main_arg5 (by decide)).trans (arg5_3 m ρ c)))

/-- The second product launch leaves `h₁ · W₂`. -/
theorem product2 : W7 m ρ c (Proc.devRef .tc main_v46)
    = linear (biasRelu (propagate (m ((c.tc : Thread nD τ).loc main_arg1))
        (linear (m ((c.tc : Thread nD τ).loc main_arg0) : FVec Ideal S100000x128 .f32) (m ((c.tc : Thread nD τ).loc main_arg3) : FVec Ideal S128x128 .f32)))
        (m ((c.tc : Thread nD τ).loc main_arg4) : FVec Ideal S128 .f32)) (m ((c.tc : Thread nD τ).loc main_arg5) : FVec Ideal S128x128 .f32) := by
  have h : W7 m ρ c (Proc.devRef .tc main_v46) = (dat2 (V6 m ρ) c).arrAt 2 cfg2.N := W7_arr m ρ c 2
  rw [h, Product2.final (V6 m ρ) c]
  show linear (W6 m ρ c (Proc.devRef .tc main_v45)) (W6 m ρ c (Proc.devRef .tc main_arg5)) = _
  rw [hidden1, arg5_6]

theorem src7 : W7 m ρ c (Proc.devRef .tc main_v3) = srcIds (m ((c.tc : Thread nD τ).loc main_arg1)) :=
  (W7_of_ne m ρ c main_v3 (by decide)).trans ((W6_of_ne m ρ c main_v3 (by decide)).trans ((Stretches.layer1_keeps_src (W4 m ρ c)).trans (src4 m ρ c)))
theorem dst7 : W7 m ρ c (Proc.devRef .tc main_v6) = dstIds (m ((c.tc : Thread nD τ).loc main_arg1)) :=
  (W7_of_ne m ρ c main_v6 (by decide)).trans ((W6_of_ne m ρ c main_v6 (by decide)).trans ((Stretches.layer1_keeps_dst (W4 m ρ c)).trans (dst4 m ρ c)))
theorem weight7 : W7 m ρ c (Proc.devRef .tc main_v29) = edgeWeight (m ((c.tc : Thread nD τ).loc main_arg1)) :=
  (W7_of_ne m ρ c main_v29 (by decide)).trans ((W6_of_ne m ρ c main_v29 (by decide)).trans ((Stretches.layer1_keeps_weight (W4 m ρ c)).trans (weight4 m ρ c)))
theorem arg6_7 : W7 m ρ c (Proc.devRef .tc main_arg6) = m ((c.tc : Thread nD τ).loc main_arg6) :=
  (W7_of_ne m ρ c main_arg6 (by decide)).trans ((W6_of_ne m ρ c main_arg6 (by decide)).trans ((Stretches.layer1_keeps_arg6 (W4 m ρ c)).trans ((W4_of_ne m ρ c main_arg6 (by decide)).trans (arg6_3 m ρ c))))
theorem arg8_7 : W7 m ρ c (Proc.devRef .tc main_arg8) = m ((c.tc : Thread nD τ).loc main_arg8) :=
  (W7_of_ne m ρ c main_arg8 (by decide)).trans ((W6_of_ne m ρ c main_arg8 (by decide)).trans ((Stretches.layer1_keeps_arg8 (W4 m ρ c)).trans ((W4_of_ne m ρ c main_arg8 (by decide)).trans (arg8_3 m ρ c))))

/-- The network's second hidden layer, as a function of the arguments. -/
abbrev hidden2Spec : FVec Ideal S100000x128 .f32 :=
  biasRelu (propagate (m ((c.tc : Thread nD τ).loc main_arg1))
    (linear (biasRelu (propagate (m ((c.tc : Thread nD τ).loc main_arg1))
        (linear (m ((c.tc : Thread nD τ).loc main_arg0) : FVec Ideal S100000x128 .f32) (m ((c.tc : Thread nD τ).loc main_arg3) : FVec Ideal S128x128 .f32)))
        (m ((c.tc : Thread nD τ).loc main_arg4) : FVec Ideal S128 .f32)) (m ((c.tc : Thread nD τ).loc main_arg5) : FVec Ideal S128x128 .f32)))
    (m ((c.tc : Thread nD τ).loc main_arg6) : FVec Ideal S128 .f32)

/-- The second rectifier launch leaves the second hidden layer. -/
theorem hidden2 : W9 m ρ c (Proc.devRef .tc main_v61) = hidden2Spec m c := by
  have h : W9 m ρ c (Proc.devRef .tc main_v61) = (dat3 (V8 m ρ) c).arrAt 2 cfg3.N := W9_arr m ρ c 2
  rw [h, Rectifier3.final (V8 m ρ) c]
  show biasRelu (StableHlo.after hostOps3 (W7 m ρ c) (Proc.devRef .tc main_v59)) (rowOf (StableHlo.after hostOps3 (W7 m ρ c) (Proc.devRef .tc main_v60))) = _
  rw [Stretches.layer2_propagated (W7 m ρ c), Stretches.layer2_bias (W7 m ρ c), src7, dst7, weight7, product2, arg6_7, rowOf_reshape]
  rfl

/-! ## The head -/

theorem arg8_9 : W9 m ρ c (Proc.devRef .tc main_arg8) = m ((c.tc : Thread nD τ).loc main_arg8) :=
  (W9_of_ne m ρ c main_arg8 (by decide)).trans ((Stretches.layer2_keeps_arg8 (W7 m ρ c)).trans (arg8_7 m ρ c))

/-- The last launch reads the third weight matrix as launched: it stages it and never writes it back. -/
theorem arg7_10 : W10 m ρ c (Proc.devRef .tc main_arg7) = m ((c.tc : Thread nD τ).loc main_arg7) :=
  ((W11_arr m ρ c 1).trans (((dat4 (V10 m ρ) c).arrAt_in 1 rfl _).trans (A_eq4 (V10 m ρ) c 1))).symm.trans (W11_main_arg7 m ρ c)

/-- THE KERNEL PROGRAM'S RESULT: the network function of the arguments, with the named propagation step. -/
theorem value : W11 m ρ c (Proc.devRef .tc main_v63)
    = network (propagate (m ((c.tc : Thread nD τ).loc main_arg1)))
        (m ((c.tc : Thread nD τ).loc main_arg0) : FVec Ideal S100000x128 .f32) (m ((c.tc : Thread nD τ).loc main_arg3) : FVec Ideal S128x128 .f32)
        (m ((c.tc : Thread nD τ).loc main_arg4) : FVec Ideal S128 .f32)
        (m ((c.tc : Thread nD τ).loc main_arg5) : FVec Ideal S128x128 .f32) (m ((c.tc : Thread nD τ).loc main_arg6) : FVec Ideal S128 .f32)
        (m ((c.tc : Thread nD τ).loc main_arg7) : FVec Ideal S128x40 .f32) (m ((c.tc : Thread nD τ).loc main_arg8) : FVec Ideal S40 .f32) := by
  have h : W11 m ρ c (Proc.devRef .tc main_v63) = (dat4 (V10 m ρ) c).arrAt 3 cfg4.N := W11_arr m ρ c 3
  rw [h, Head4.final (V10 m ρ) c]
  show head (StableHlo.after hostOps4 (W9 m ρ c) (Proc.devRef .tc main_v61)) (W10 m ρ c (Proc.devRef .tc main_arg7))
      (rowOf (StableHlo.after hostOps4 (W9 m ρ c) (Proc.devRef .tc main_v62))) = _
  rw [Stretches.head_keeps_hidden (W9 m ρ c), Stretches.head_bias (W9 m ρ c), hidden2, arg7_10, arg8_9, rowOf_reshape]
  rfl

end Cert.KernelIdeal.KernelValue

end
-- ==== Proof.RefRun.lean ====
/-
  The reference program's run.

  The reference is a straight line of 105 host operations. Listed in order (`ops`), its @main is their sequence; every
  weakly fair execution terminates, without a fault, with every buffer at the fold of the operations' results over the
  launch contents. So the result array ends at that fold's value at its buffer — read, stage by stage, elsewhere — and
  each argument array, which no operation writes, ends as launched.
-/
import proofs.«174355_j85005992722928_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 105 operations, in order (a called function's operations stand in its call's place, spelt `TRef.…`). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg3 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg5 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf,
    binary main_v65 main_arg7 main_v66 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg8 main_v67 (broadcastInDim S1x40 ![1] bcast_S40_S1x40_1 : (⟨S40, .f32⟩ : BufTy).Contents (Elt F) → (⟨S1x40, .f32⟩ : BufTy).Contents (Elt F)),
    unary main_v67 main_v68 (broadcastInDim S100000x40 ![0, 1] bcast_S1x40_S100000x40_0_1 : (⟨S1x40, .f32⟩ : BufTy).Contents (Elt F) → (⟨S100000x40, .f32⟩ : BufTy).Contents (Elt F)),
    binary main_v66 main_v68 main_v69 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32),
    TRef.binary (TRef.of (T := ⟨S100000x40, .f32⟩) main_v69) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v69) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v70) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 42000000 in
/-- On every device, from any memory with zero counters: every weakly fair execution of @main terminates with the result
    array at the operations' fold over the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = StableHlo.after (ops (F := F)) (launchContents m c) (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v70,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RefRun

end
-- ==== Proof.LibDenseOps.lean ====
/-
  The small operations of a dense stage, read at an entry, at the ideal values.

  A bias vector `b` of length `K` is added to every row of an `R × K` matrix and the rectifier applied. A kernel spells the
  row broadcast `[K] → [1, K] → [R, K]` with a shape cast and a vector broadcast and the rectifier's zero as a scalar
  splat; the host spells the broadcast with two `broadcast_in_dim`s and the zero as a broadcast constant. Either way the
  entry at `(r, k)` is `max (A[r,k] + b[k]) 0`, the `0` being the all-zero word. The same for the one-entry bias of the
  last stage. The logistic function `σ t = 1 / (1 + e⁻ᵗ)`, spelt by the host with the word `0x3F800000` for `1`, is the
  function the kernel's single operation denotes.
-/
import proofs.«174355_j85005992722928_1_alg».proof.Proof.LibDenseSpec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn

open Idealize.ShloMosaic Idealize.ShloMosaic.ValueIdx

variable {R K : ℕ}

/-- A kernel's `relu (A + b)` at entry `(p, k)`. -/
theorem biasRelu_vector (x0 : FVec Ideal ⟨2, ![R, K]⟩ .f32) (x1 : FVec Ideal ⟨1, ![K]⟩ .f32)
    (h1 : (⟨2, ![R, K]⟩ : Shape).ShapeCasts ⟨2, ![R, K]⟩) (h2 : (⟨1, ![K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 x1 (ix2 p k) := by
  rw [biasRelu_ix2, maximumf_apply, addf_apply, broadcast_apply, shapeCast_self, broadcastTo_1b_ab_apply, shapeCast_a_1a_apply]
  rfl

/-- A length-`K` vector broadcast over the rows of an `R × K` matrix by two `broadcast_in_dim`s, at entry `(r, k)`. -/
theorem rowBroadcast_host {α : Type} (b : (⟨1, ![K]⟩ : Shape).Idx → α)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2)) (r : Fin R) (k : Fin K) :
    broadcastInDim ⟨2, ![R, K]⟩ (![0, 1] : Fin 2 → Fin 2) h2 (broadcastInDim ⟨2, ![1, K]⟩ (![1] : Fin 1 → Fin 2) h1 b) (ix2 r k) = b (ix1 k) := by
  rw [broadcastInDim_apply (![0, 1] : Fin 2 → Fin 2) h2 _ (ix2 r k) (ix2 (0 : Fin 1) k) (fun a => by
    match a with
    | ⟨0, _⟩ => rfl
    | ⟨1, _⟩ =>
      show k.val = if K = 1 then 0 else k.val
      split
      · have := k.isLt; omega
      · rfl)]
  exact broadcastInDim_apply (![1] : Fin 1 → Fin 2) h1 b (ix2 (0 : Fin 1) k) (ix1 k) (fun a => by
    match a with
    | ⟨0, _⟩ =>
      show k.val = if K = 1 then 0 else k.val
      split
      · have := k.isLt; omega
      · rfl)

/-- The host's `relu (A + b)` at entry `(r, k)`. -/
theorem biasRelu_host (a : FVec Ideal ⟨2, ![R, K]⟩ .f32) (b : FVec Ideal ⟨1, ![K]⟩ .f32)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2))
    (h3 : (⟨0, ![]⟩ : Shape).BroadcastsInDim ⟨2, ![R, K]⟩ (![] : Fin 0 → Fin 2)) (r : Fin R) (k : Fin K) :
    maximumf (addf a (broadcastInDim ⟨2, ![R, K]⟩ (![0, 1] : Fin 2 → Fin 2) h2 (broadcastInDim ⟨2, ![1, K]⟩ (![1] : Fin 1 → Fin 2) h1 b)))
        (broadcastInDim ⟨2, ![R, K]⟩ (![] : Fin 0 → Fin 2) h3 (constant (F := Ideal) ⟨0, ![]⟩ .f32 0x00000000#32)) (ix2 r k)
      = biasRelu a b (ix2 r k) := by
  rw [biasRelu_ix2, maximumf_apply, addf_apply, rowBroadcast_host b h1 h2 r k,
    broadcastInDim_apply (![] : Fin 0 → Fin 2) h3 _ (ix2 r k) ix0 (fun a => a.elim0)]
  rfl

/-- A constant broadcast to an `R × K` matrix by the host, at any entry: the constant's word. -/
theorem splat_host (h3 : (⟨0, ![]⟩ : Shape).BroadcastsInDim ⟨2, ![R, K]⟩ (![] : Fin 0 → Fin 2)) (w : BitVec 32) (i : (⟨2, ![R, K]⟩ : Shape).Idx) :
    broadcastInDim ⟨2, ![R, K]⟩ (![] : Fin 0 → Fin 2) h3 (constant (F := Ideal) ⟨0, ![]⟩ .f32 w) i = Ideal.ofBits .f32 w := by
  rw [broadcastInDim_apply (![] : Fin 0 → Fin 2) h3 _ i ix0 (fun a => a.elim0)]
  rfl

/-- The word `0x3F800000` is the number one. -/
theorem one_word : Ideal.ofBits .f32 0x3F800000#32 = 1 := by
  simp [Ideal.ofBits, Ideal.ieee, -EReal.coe_mul]; norm_num

/-- The logistic function spelt `1 / (1 + e⁻ᵗ)` with the word for one. -/
theorem logistic_spelt (t : EReal) :
    Ideal.div (Ideal.ofBits .f32 0x3F800000#32) (Ideal.ofBits .f32 0x3F800000#32 + Ideal.exp (-t)) = Ideal.logistic t := by
  rw [one_word]; rfl

/-- The host's `1 / (1 + e^(-z))` at an entry where both of its ones are the word for one: the logistic function of `z`'s
    entry. -/
theorem logistic_host {S : Shape} (one₁ one₂ z : FVec Ideal S .f32) (i : S.Idx)
    (h1 : one₁ i = Ideal.ofBits .f32 0x3F800000#32) (h2 : one₂ i = Ideal.ofBits .f32 0x3F800000#32) :
    Host.divf one₁ (addf one₂ (Host.exp (Host.negf z))) i = Ideal.logistic (z i) := by
  show Ideal.div (one₁ i) (one₂ i + Ideal.exp (-(z i))) = _
  rw [h1, h2, logistic_spelt]

end Cert.Gcn

end
-- ==== Proof.RefValue.lean ====
/-
  The reference program's operations, folded, as the specification's functions.

  The reference computes `hostLogSoftmax (hostLogits (hostLayer P (hostLayer P x W₁ b₁) W₂ b₂) W₃ b₃)` with `P` one
  propagation step over the graph (the named host operations, never opened), and
    * `hostLayer P X W b`  — the host's product `X · W`, propagated, plus `b` laid along every row, against zero;
    * `hostLogits H W b`   — the host's product plus `b` laid along every row;
    * `hostLogSoftmax L`   — `L` minus each row's maximum (a reduction from `-∞`, then `max` with `-∞` again), minus the
                             logarithm of each row's sum (a reduction from zero) of the exponentials.
  Read at an entry each is the specification's function: the host's product is the plain sum over `k`; laying a vector
  along the rows, or a column along the columns, reads the vector; a maximum reduction is the fold of `max` from its
  initial value, which `max` with that value again does not change; a sum reduction from the zero word is the sum.
-/
import proofs.«174355_j85005992722928_1_alg».proof.Proof.Gen.ReferenceIdeal
import proofs.«174355_j85005992722928_1_alg».proof.Proof.HostPieces
import proofs.«174355_j85005992722928_1_alg».proof.Proof.NetSpec
import proofs.«174355_j85005992722928_1_alg».proof.Proof.LibMatmulSum
import proofs.«174355_j85005992722928_1_alg».proof.Proof.LibDenseOps
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce
import Mathlib.Data.Finset.Fold

set_option maxRecDepth 16384

noncomputable section

namespace Cert.ReferenceIdeal.RefValue

open Cert.ReferenceIdeal Cert.ReferenceIdeal.Gen Cert.ReferenceIdeal.Pieces Cert.Gcn
open Idealize.ShloMosaic Idealize.ShloMosaic.TcCoe Idealize.SL.Sem Idealize.ShloMosaic.ValueIdx

/-! ## General: keep-dimension broadcasts and one-axis reductions on the host, read at an entry -/

section General
variable {R N : ℕ}

/-- A vector laid out as a column and spread along the rows reads, at `(r, q)`, the vector at `r`. -/
theorem columnBroadcast_host {α : Type} (v : (⟨1, ![R]⟩ : Shape).Idx → α)
    (h1 : (⟨1, ![R]⟩ : Shape).BroadcastsInDim ⟨2, ![R, 1]⟩ (![0] : Fin 1 → Fin 2))
    (h2 : (⟨2, ![R, 1]⟩ : Shape).BroadcastsInDim ⟨2, ![R, N]⟩ (![0, 1] : Fin 2 → Fin 2)) (r : Fin R) (q : Fin N) :
    broadcastInDim ⟨2, ![R, N]⟩ (![0, 1] : Fin 2 → Fin 2) h2 (broadcastInDim ⟨2, ![R, 1]⟩ (![0] : Fin 1 → Fin 2) h1 v) (ix2 r q) = v (ix1 r) := by
  rw [broadcastInDim_apply (![0, 1] : Fin 2 → Fin 2) h2 _ (ix2 r q) (ix2 r (0 : Fin 1)) (fun a => by
    match a with
    | ⟨0, _⟩ =>
      show r.val = if R = 1 then 0 else r.val
      split
      · have := r.isLt; omega
      · rfl
    | ⟨1, _⟩ => rfl)]
  exact broadcastInDim_apply (![0] : Fin 1 → Fin 2) h1 v (ix2 r (0 : Fin 1)) (ix1 r) (fun a => by
    match a with
    | ⟨0, _⟩ =>
      show r.val = if R = 1 then 0 else r.val
      split
      · have := r.isLt; omega
      · rfl)

/-- The host's exponential and logarithm at an entry. -/
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- The logarithm of a vector laid out as a column, spread along the rows: at `(r, q)` the logarithm of the vector at `r`. -/
theorem logColumn_host (v : FVec Ideal ⟨1, ![R]⟩ .f32)
    (h1 : (⟨1, ![R]⟩ : Shape).BroadcastsInDim ⟨2, ![R, 1]⟩ (![0] : Fin 1 → Fin 2))
    (h2 : (⟨2, ![R, 1]⟩ : Shape).BroadcastsInDim ⟨2, ![R, N]⟩ (![0, 1] : Fin 2 → Fin 2)) (r : Fin R) (q : Fin N) :
    broadcastInDim ⟨2, ![R, N]⟩ (![0, 1] : Fin 2 → Fin 2) h2 (Host.log (broadcastInDim ⟨2, ![R, 1]⟩ (![0] : Fin 1 → Fin 2) h1 v)) (ix2 r q)
      = Ideal.log (v (ix1 r)) := by
  rw [broadcastInDim_apply (![0, 1] : Fin 2 → Fin 2) h2 _ (ix2 r q) (ix2 r (0 : Fin 1)) (fun a => by
    match a with
    | ⟨0, _⟩ =>
      show r.val = if R = 1 then 0 else r.val
      split
      · have := r.isLt; omega
      · rfl
    | ⟨1, _⟩ => rfl), hostLog_apply]
  refine congrArg Ideal.log ?_
  exact broadcastInDim_apply (![0] : Fin 1 → Fin 2) h1 v (ix2 r (0 : Fin 1)) (ix1 r) (fun a => by
    match a with
    | ⟨0, _⟩ =>
      show r.val = if R = 1 then 0 else r.val
      split
      · have := r.isLt; omega
      · rfl)

/-- A constant spread over a vector by the host reads the constant's word. -/
theorem splatVec_host (h : (⟨0, ![]⟩ : Shape).BroadcastsInDim ⟨1, ![R]⟩ (![] : Fin 0 → Fin 1)) (w : BitVec 32) (i : (⟨1, ![R]⟩ : Shape).Idx) :
    broadcastInDim ⟨1, ![R]⟩ (![] : Fin 0 → Fin 1) h (constant (F := Ideal) ⟨0, ![]⟩ .f32 w) i = Ideal.ofBits .f32 w := by
  rw [broadcastInDim_apply (![] : Fin 0 → Fin 1) h _ i ix0 (fun a => a.elim0)]
  rfl

/-- The host's maximum along the rows, from an initial value `init`: the fold of `max` from it over the row. -/
theorem hostRowMax_apply (L : FVec Ideal ⟨2, ![R, N]⟩ .f32) (w : BitVec 32)
    (h' : (⟨2, ![R, N]⟩ : Shape).ReducesTo [1] ⟨1, ![R]⟩) (h : (⟨2, ![R, N]⟩ : Shape).Reduces [1] ⟨1, ![R]⟩)
    (hu : 0 < (⟨0, ![]⟩ : Shape).numel) (r : Fin R) :
    Host.reduce FloatOps.maximumf L (constant (F := Ideal) ⟨0, ![]⟩ .f32 w) h' hu (ix1 r)
      = (Finset.univ : Finset (Fin N)).fold max (Ideal.ofBits .f32 w) (fun q => L (ix2 r q)) := by
  refine (Host.reduce_eq_fold_single FloatOps.maximumf L _ h' h hu (ix1 r)).trans ?_
  show (Finset.univ : Finset (Fin N)).fold max (Ideal.ofBits .f32 w) (L ∘ h.lift (ix1 r)) = _
  refine Finset.fold_congr fun q _ => ?_
  exact congrArg L (funext fun d => Fin.ext (by match d with | ⟨0, _⟩ => rfl | ⟨1, _⟩ => rfl))

/-- The host's sum along the rows from the zero word: the sum over the row. -/
theorem hostRowSum_apply (E : FVec Ideal ⟨2, ![R, N]⟩ .f32)
    (h' : (⟨2, ![R, N]⟩ : Shape).ReducesTo [1] ⟨1, ![R]⟩) (h : (⟨2, ![R, N]⟩ : Shape).Reduces [1] ⟨1, ![R]⟩)
    (hu : 0 < (⟨0, ![]⟩ : Shape).numel) (r : Fin R) :
    Host.reduceAdd E (constant (F := Ideal) ⟨0, ![]⟩ .f32 0x00000000#32) h' hu (ix1 r) = ∑ q : Fin N, E (ix2 r q) := by
  rw [hostReduceAdd_apply, Ideal.hostReduceAdd_single h' h]
  show Ideal.ofBits .f32 0x00000000#32 + _ = _
  rw [Ideal.ofBits_zero_f32, zero_add]
  refine Finset.sum_congr rfl fun q _ => ?_
  exact congrArg E (funext fun d => Fin.ext (by match d with | ⟨0, _⟩ => rfl | ⟨1, _⟩ => rfl))

/-- `max` of a fold's initial value with the fold is the fold. -/
theorem max_init_fold (a : EReal) (f : Fin N → EReal) :
    max a ((Finset.univ : Finset (Fin N)).fold max a f) = (Finset.univ : Finset (Fin N)).fold max a f :=
  max_eq_right ((Finset.le_fold_max a).mpr (Or.inl le_rfl))

end General

/-! ## The reference's operations, folded -/

/-- One layer as the host spells it: the product, propagated, plus the bias along every row, against zero. -/
def hostLayer (P : NodeMat → NodeMat) (X : FVec Ideal S100000x128 .f32) (W : FVec Ideal S128x128 .f32) (b : FVec Ideal S128 .f32) : NodeMat :=
  maximumf (addf (P (Host.dotGeneral (F := Ideal) dot_S100000x128_S128x128_S100000x128_1_0_0_1_n_n none X W)) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

/-- The logits as the host spells them. -/
def hostLogits (H : NodeMat) (W : FVec Ideal S128x40 .f32) (b : FVec Ideal S40 .f32) : FVec Ideal S100000x40 .f32 :=
  addf (Host.dotGeneral (F := Ideal) dot_S100000x128_S128x40_S100000x40_1_0_0_1_n_n none H W) (broadcastInDim S100000x40 ![0, 1] bcast_S1x40_S100000x40_0_1 (broadcastInDim S1x40 ![1] bcast_S40_S1x40_1 b))

/-- The logits minus each row's maximum, as the host spells it. -/
def hostShifted (L : FVec Ideal S100000x40 .f32) : FVec Ideal S100000x40 .f32 :=
  subf L (broadcastInDim S100000x40 ![0, 1] bcast_S100000x1_S100000x40_0_1 (broadcastInDim S100000x1 ![0] bcast_S100000_S100000x1_0 (maximumf (broadcastInDim S100000 ![] bcast_S_S100000 (constant (F := Ideal) S_ .f32 0xFF800000#32)) (Host.reduce FloatOps.maximumf L (constant (F := Ideal) S_ .f32 0xFF800000#32) reducesTo_S100000x40_S100000_d1 h_S_))))

/-- The log-softmax along the rows as the host spells it. -/
def hostLogSoftmax (L : FVec Ideal S100000x40 .f32) : FVec Ideal S100000x40 .f32 :=
  subf (hostShifted L) (broadcastInDim S100000x40 ![0, 1] bcast_S100000x1_S100000x40_0_1 (Host.log (broadcastInDim S100000x1 ![0] bcast_S100000_S100000x1_0 (Host.reduceAdd (Host.exp (hostShifted L)) (constant (F := Ideal) S_ .f32 0x00000000#32) reducesTo_S100000x40_S100000_d1 h_S_))))

/-! ## The folded operations in their steps -/

/-- The host's 128-column product. -/
def hostProduct (X : FVec Ideal S100000x128 .f32) (W : FVec Ideal S128x128 .f32) : NodeMat :=
  Host.dotGeneral (F := Ideal) dot_S100000x128_S128x128_S100000x128_1_0_0_1_n_n none X W

/-- A 128-vector laid along every row and added. -/
def hostBiasAdd (A : NodeMat) (b : FVec Ideal S128 .f32) : NodeMat :=
  addf A (broadcastInDim S100000x128 ![0, 1] bcast_S1x128_S100000x128_0_1 (broadcastInDim S1x128 ![1] bcast_S128_S1x128_1 b))

/-- The maximum with a zero spread over the matrix. -/
def hostRelu (A : NodeMat) : NodeMat :=
  maximumf A (broadcastInDim S100000x128 ![] bcast_S_S100000x128 (constant (F := Ideal) S_ .f32 0x00000000#32))

theorem hostLayer_steps (P : NodeMat → NodeMat) (X : FVec Ideal S100000x128 .f32) (W : FVec Ideal S128x128 .f32) (b : FVec Ideal S128 .f32) :
    hostRelu (hostBiasAdd (P (hostProduct X W)) b) = hostLayer P X W b := rfl

/-- Each row's maximum as the host takes it: a reduction from `-∞`, then the maximum with `-∞` again. -/
def hostRowMaxVec (L : FVec Ideal S100000x40 .f32) : FVec Ideal S100000 .f32 :=
  maximumf (broadcastInDim S100000 ![] bcast_S_S100000 (constant (F := Ideal) S_ .f32 0xFF800000#32)) (Host.reduce FloatOps.maximumf L (constant (F := Ideal) S_ .f32 0xFF800000#32) reducesTo_S100000x40_S100000_d1 h_S_)

/-- A vector laid out as a column, spread along the rows and subtracted. -/
def hostShiftBy (L : FVec Ideal S100000x40 .f32) (M : FVec Ideal S100000 .f32) : FVec Ideal S100000x40 .f32 :=
  subf L (broadcastInDim S100000x40 ![0, 1] bcast_S100000x1_S100000x40_0_1 (broadcastInDim S100000x1 ![0] bcast_S100000_S100000x1_0 M))

theorem hostShifted_steps (L : FVec Ideal S100000x40 .f32) : hostShiftBy L (hostRowMaxVec L) = hostShifted L := rfl

/-- Each row's sum of exponentials as the host takes it: a reduction from zero. -/
def hostExpSum (Z : FVec Ideal S100000x40 .f32) : FVec Ideal S100000 .f32 :=
  Host.reduceAdd (Host.exp Z) (constant (F := Ideal) S_ .f32 0x00000000#32) reducesTo_S100000x40_S100000_d1 h_S_

/-- The logarithm of a vector laid out as a column, spread along the rows and subtracted. -/
def hostNormalizeBy (Z : FVec Ideal S100000x40 .f32) (Sv : FVec Ideal S100000 .f32) : FVec Ideal S100000x40 .f32 :=
  subf Z (broadcastInDim S100000x40 ![0, 1] bcast_S100000x1_S100000x40_0_1 (Host.log (broadcastInDim S100000x1 ![0] bcast_S100000_S100000x1_0 Sv)))

theorem hostLogSoftmax_steps (L : FVec Ideal S100000x40 .f32) :
    hostNormalizeBy (hostShiftBy L (hostRowMaxVec L)) (hostExpSum (hostShiftBy L (hostRowMaxVec L))) = hostLogSoftmax L := rfl

/-! ## Each folded piece is the specification's -/

theorem lhs_row (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
theorem lhs_col (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_row (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_col (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

theorem lhs_row' (i : S100000x40.Idx) (q : dot_S100000x128_S128x40_S100000x40_1_0_0_1_n_n.contr.Idx) :
    (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide),
    dif_pos (show (0 : Fin S100000x128.rank) ∈ dot_S100000x128_S128x40_S100000x40_1_0_0_1_n_n.lhsNonContracting by decide)]
  rfl
theorem lhs_col' (i : S100000x40.Idx) (q : dot_S100000x128_S128x40_S100000x40_1_0_0_1_n_n.contr.Idx) :
    (dot_S100000x128_S128x40_S100000x40_1_0_0_1_n_n.lhsIdx i q 1).val = (q ⟨0, by decide⟩).val :=
  dot_S100000x128_S128x40_S100000x40_1_0_0_1_n_n.lhsIdx_val_of_single rfl i q
theorem rhs_row' (i : S100000x40.Idx) (q : dot_S100000x128_S128x40_S100000x40_1_0_0_1_n_n.contr.Idx) :
    (dot_S100000x128_S128x40_S100000x40_1_0_0_1_n_n.rhsIdx i q 0).val = (q ⟨0, by decide⟩).val :=
  dot_S100000x128_S128x40_S100000x40_1_0_0_1_n_n.rhsIdx_val_of_single rfl i q
theorem rhs_col' (i : S100000x40.Idx) (q : dot_S100000x128_S128x40_S100000x40_1_0_0_1_n_n.contr.Idx) :
    (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide),
    dif_pos (show (1 : Fin S128x40.rank) ∈ dot_S100000x128_S128x40_S100000x40_1_0_0_1_n_n.rhsNonContracting by decide)]
  rfl

/-- The host's 128-column product is `linear`. -/
theorem hostProduct_eq (X : FVec Ideal S100000x128 .f32) (W : FVec Ideal S128x128 .f32) :
    Host.dotGeneral (F := Ideal) dot_S100000x128_S128x128_S100000x128_1_0_0_1_n_n none X W = linear X W :=
  funext fun i => by
    obtain ⟨r, s, rfl⟩ : ∃ (r : Fin 100000) (s : Fin 128), i = ix2 r s := ⟨i 0, i 1, eq_ix2 i⟩
    rw [linear_ix2]
    exact Cert.GraphConv.dotGeneral_sum dot_S100000x128_S128x128_S100000x128_1_0_0_1_n_n none _ rfl rfl lhs_row lhs_col rhs_row rhs_col X W (ix2 r s)

/-- The host's 40-column product is `linear`. -/
theorem hostProduct40_eq (H : FVec Ideal S100000x128 .f32) (W : FVec Ideal S128x40 .f32) :
    Host.dotGeneral (F := Ideal) dot_S100000x128_S128x40_S100000x40_1_0_0_1_n_n none H W = linear H W :=
  funext fun i => by
    obtain ⟨r, s, rfl⟩ : ∃ (r : Fin 100000) (s : Fin 40), i = ix2 r s := ⟨i 0, i 1, eq_ix2 i⟩
    rw [linear_ix2]
    exact Cert.GraphConv.dotGeneral_sum dot_S100000x128_S128x40_S100000x40_1_0_0_1_n_n none _ rfl rfl lhs_row' lhs_col' rhs_row' rhs_col' H W (ix2 r s)

/-- A host layer is `biasRelu (P (X · W)) b`. -/
theorem hostLayer_eq (P : NodeMat → NodeMat) (X : FVec Ideal S100000x128 .f32) (W : FVec Ideal S128x128 .f32) (b : FVec Ideal S128 .f32) :
    hostLayer P X W b = biasRelu (P (linear X W)) b := by
  unfold hostLayer
  rw [hostProduct_eq]
  funext i
  obtain ⟨r, s, rfl⟩ : ∃ (r : Fin 100000) (s : Fin 128), i = ix2 r s := ⟨i 0, i 1, eq_ix2 i⟩
  exact biasRelu_host (P (linear X W)) b bcast_S128_S1x128_1 bcast_S1x128_S100000x128_0_1 bcast_S_S100000x128 r s

/-- The host's logits are `X · W + b`. -/
theorem hostLogits_eq (H : NodeMat) (W : FVec Ideal S128x40 .f32) (b : FVec Ideal S40 .f32) :
    hostLogits H W b = biasAdd (linear H W) b := by
  unfold hostLogits
  rw [hostProduct40_eq]
  funext i
  obtain ⟨r, s, rfl⟩ : ∃ (r : Fin 100000) (s : Fin 40), i = ix2 r s := ⟨i 0, i 1, eq_ix2 i⟩
  rw [addf_apply, biasAdd_ix2, rowBroadcast_host b bcast_S40_S1x40_1 bcast_S1x40_S100000x40_0_1 r s]

theorem reduces_rows : S100000x40.Reduces [1] S100000 := by decide

/-- The host's shifted logits at an entry. -/
theorem hostShifted_apply (L : FVec Ideal S100000x40 .f32) (r : Fin 100000) (q : Fin 40) :
    hostShifted L (ix2 r q) = L (ix2 r q) - rowMax L r := by
  unfold hostShifted
  rw [subf_apply, columnBroadcast_host _ bcast_S100000_S100000x1_0 bcast_S100000x1_S100000x40_0_1 r q, maximumf_apply,
    splatVec_host bcast_S_S100000, hostRowMax_apply L 0xFF800000#32 reducesTo_S100000x40_S100000_d1 reduces_rows h_S_ r, max_init_fold]
  rfl

/-- The host's log-softmax is `logSoftmax`. -/
theorem hostLogSoftmax_eq (L : FVec Ideal S100000x40 .f32) : hostLogSoftmax L = logSoftmax L := by
  funext i
  obtain ⟨r, s, rfl⟩ : ∃ (r : Fin 100000) (s : Fin 40), i = ix2 r s := ⟨i 0, i 1, eq_ix2 i⟩
  unfold hostLogSoftmax
  rw [subf_apply, hostShifted_apply, logSoftmax_ix2]
  refine congrArg (fun z => L (ix2 r s) - rowMax L r - z) ?_
  rw [logColumn_host _ bcast_S100000_S100000x1_0 bcast_S100000x1_S100000x40_0_1 r s,
    hostRowSum_apply _ reducesTo_S100000x40_S100000_d1 reduces_rows h_S_ r]
  unfold rowExpSum
  refine congrArg Ideal.log (Finset.sum_congr rfl fun q _ => ?_)
  rw [hostExp_apply, hostShifted_apply]

end Cert.ReferenceIdeal.RefValue

end
-- ==== Proof.RefStages.lean ====
/-
  The reference program's result, read stage by stage.

  The run leaves the result array at the fold of the 105 operations over the launch contents. The operations fall into
  sixteen consecutive stages — the ids and the degree; the inverse root of the degree where it is positive; the edge
  weights; for each of the two layers the product, its propagation, the bias, the rectifier; the logits; and the
  log-softmax in four steps (each row's maximum, the shift by it, each row's sum of exponentials, the logarithm
  subtracted) — and the fold over the whole list is the fold over the stages in turn. From any contents `X`, each stage
  leaves in its result buffer one named host operation of what `X` holds in the buffers the stage reads, and keeps
  every buffer it does not write. Composed from the launch contents this is the folded term
  `hostLogSoftmax (hostLogits (hostLayer P (hostLayer P x W₁ b₁) W₂ b₂) W₃ b₃)`, `P` the propagation step of the edge
  list, which is the network function of the arguments.
-/
import proofs.«174355_j85005992722928_1_alg».proof.Proof.RefRun
import proofs.«174355_j85005992722928_1_alg».proof.Proof.RefValue
import proofs.«174355_j85005992722928_1_alg».proof.Proof.HostPieces
import proofs.«174355_j85005992722928_1_alg».proof.Proof.NetSpec
import Idealize.ShloMosaic.Lib.StableHlo.Run

set_option maxRecDepth 16384

noncomputable section

namespace Cert.ReferenceIdeal.RefStages

open Cert.ReferenceIdeal Cert.ReferenceIdeal.Gen Idealize.ShloMosaic Idealize.ShloMosaic.TcCoe Idealize.SL.Sem Idealize.ShloMosaic.StableHlo
open Cert.ReferenceIdeal.Pieces Cert.ReferenceIdeal.RefValue Cert.Gcn

section Lists
variable {F : FTy → Type} [FloatOps F]

/-- Operations 1 … 18: the source and destination ids, the degree, its test against zero, its inverse root, the zero scalar. -/
abbrev stage01 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Operations 19 … 21: the inverse root where the test holds, zero elsewhere. -/
abbrev stage02 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Operations 22 … 40: the edge weights. -/
abbrev stage03 : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Operation 41: the first product. -/
abbrev stage04 : List (HloOp τ sig (Elt F)) :=
  [ binary main_arg0 main_arg3 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 42 … 57: its propagation. -/
abbrev stage05 : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Operations 58 … 60: the first bias added. -/
abbrev stage06 : List (HloOp τ sig (Elt F)) :=
  [ unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- Operations 61 … 63: the first rectifier. -/
abbrev stage07 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- Operation 64: the second product. -/
abbrev stage08 : List (HloOp τ sig (Elt F)) :=
  [ binary main_v47 main_arg5 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 65 … 80: its propagation. -/
abbrev stage09 : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Operations 81 … 83: the second bias added. -/
abbrev stage10 : List (HloOp τ sig (Elt F)) :=
  [ unary main_arg6 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)) ]

/-- Operations 84 … 86: the second rectifier. -/
abbrev stage11 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf ]

/-- Operations 87 … 90: the logits. -/
abbrev stage12 : List (HloOp τ sig (Elt F)) :=
  [ binary main_v65 main_arg7 main_v66 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg8 main_v67 (broadcastInDim S1x40 ![1] bcast_S40_S1x40_1 : (⟨S40, .f32⟩ : BufTy).Contents (Elt F) → (⟨S1x40, .f32⟩ : BufTy).Contents (Elt F)),
    unary main_v67 main_v68 (broadcastInDim S100000x40 ![0, 1] bcast_S1x40_S100000x40_0_1 : (⟨S1x40, .f32⟩ : BufTy).Contents (Elt F) → (⟨S100000x40, .f32⟩ : BufTy).Contents (Elt F)),
    binary main_v66 main_v68 main_v69 (addf : (⟨S100000x40, .f32⟩ : BufTy).Contents (Elt F) → (⟨S100000x40, .f32⟩ : BufTy).Contents (Elt F) → (⟨S100000x40, .f32⟩ : BufTy).Contents (Elt F)) ]

/-- Operations 91 … 95: each row's maximum. -/
abbrev stage13 : List (HloOp τ sig (Elt F)) :=
  [ TRef.nullary (TRef.of (T := ⟨S_, .f32⟩) main_call3_cst) (constant S_ .f32 0xFF800000#32),
    TRef.binary (TRef.of (T := ⟨S100000x40, .f32⟩) main_v69) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Operations 96 … 98: the logits shifted by it. -/
abbrev stage14 : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v69) (TRef.of (T := ⟨S100000x40, .f32⟩) main_call3_v4) (TRef.of (T := ⟨S100000x40, .f32⟩) main_call3_v5) subf ]

/-- Operations 99 … 101: each row's sum of exponentials. -/
abbrev stage15 : List (HloOp τ sig (Elt F)) :=
  [ TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_) ]

/-- Operations 102 … 105: the logarithm subtracted. -/
abbrev stage16 : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v70) subf ]

set_option maxRecDepth 65536 in
/-- The operation list is its stages in turn. -/
theorem ops_split : (RefRun.ops (F := F)) = stage01 ++ (stage02 ++ (stage03 ++ (stage04 ++ (stage05 ++ (stage06 ++ (stage07 ++ (stage08 ++ (stage09 ++ (stage10 ++ (stage11 ++ (stage12 ++ (stage13 ++ (stage14 ++ (stage15 ++ (stage16))))))))))))))) := rfl

end Lists

/-- The fold over an appended list is the fold over the second after the first. -/
theorem after_append' (l1 l2 : List (HloOp τ sig (Elt Ideal))) (V : Valuation τ sig (Elt Ideal)) :
    StableHlo.after (l1 ++ l2) V = StableHlo.after l2 (StableHlo.after l1 V) := by
  induction l1 generalizing V with
  | nil => rfl
  | cons op l ih => simp only [List.cons_append, after_cons, ih]

variable (X : Valuation τ sig (Elt Ideal))

/-- A stage keeps every buffer none of its operations writes. -/
macro "stage_keeps" : tactic =>
  `(tactic| (refine StableHlo.after_of_forall_not_mem _ _ (List.forall_iff_forall_mem.mp ?_)
             simp only [stage01, stage02, stage03, stage04, stage05, stage06, stage07, stage08, stage09, stage10, stage11, stage12,
               stage13, stage14, stage15, stage16, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-! ## What each stage computes -/

set_option maxRecDepth 65536 in
set_option maxHeartbeats 8000000 in
theorem ids_src : StableHlo.after (stage01 (F := Ideal)) X (Proc.devRef .tc main_v3) = srcIds (X (Proc.devRef .tc main_arg1)) := by
  after_results_simp <;> rfl
set_option maxRecDepth 65536 in
set_option maxHeartbeats 8000000 in
theorem ids_dst : StableHlo.after (stage01 (F := Ideal)) X (Proc.devRef .tc main_v6) = dstIds (X (Proc.devRef .tc main_arg1)) := by
  after_results_simp <;> rfl
set_option maxRecDepth 65536 in
set_option maxHeartbeats 8000000 in
theorem degree_test : StableHlo.after (stage01 (F := Ideal)) X (Proc.devRef .tc main_v12)
    = cmpf (F := Ideal) .ogt (degree (X (Proc.devRef .tc main_arg1))) (broadcastInDim S100000 ![] bcast_S_S100000 (constant (F := Ideal) S_ .f32 0x00000000#32)) := by
  after_results_simp <;> rfl
set_option maxRecDepth 65536 in
set_option maxHeartbeats 8000000 in
theorem degree_root : StableHlo.after (stage01 (F := Ideal)) X (Proc.devRef .tc main_v13) = Host.rsqrt (F := Ideal) (degree (X (Proc.devRef .tc main_arg1))) := by
  after_results_simp <;> rfl
set_option maxRecDepth 65536 in
set_option maxHeartbeats 8000000 in
theorem zero_scalar : StableHlo.after (stage01 (F := Ideal)) X (Proc.devRef .tc main_cst_2) = constant (F := Ideal) S_ .f32 0x00000000#32 := by
  after_results_simp <;> rfl

set_option maxHeartbeats 4000000 in
theorem where_stage : StableHlo.after (stage02 (F := Ideal)) X (Proc.devRef .tc main_v14)
    = whereElse (X (Proc.devRef .tc main_v12)) (X (Proc.devRef .tc main_v13)) (X (Proc.devRef .tc main_cst_2)) := by
  after_results_simp <;> rfl

set_option maxHeartbeats 4000000 in
theorem weight_stage : StableHlo.after (stage03 (F := Ideal)) X (Proc.devRef .tc main_v29)
    = weightOf (X (Proc.devRef .tc main_v14)) (X (Proc.devRef .tc main_v3)) (X (Proc.devRef .tc main_v6)) := by
  after_results_simp <;> rfl

set_option maxHeartbeats 4000000 in
theorem product1_stage : StableHlo.after (stage04 (F := Ideal)) X (Proc.devRef .tc main_v30)
    = hostProduct (X (Proc.devRef .tc main_arg0)) (X (Proc.devRef .tc main_arg3)) := by
  after_results_simp <;> rfl
set_option maxHeartbeats 4000000 in
theorem propagate1_stage : StableHlo.after (stage05 (F := Ideal)) X (Proc.devRef .tc main_v43)
    = propagateWith (X (Proc.devRef .tc main_v3)) (X (Proc.devRef .tc main_v6)) (X (Proc.devRef .tc main_v29)) (X (Proc.devRef .tc main_v30)) := by
  after_results_simp <;> rfl
set_option maxHeartbeats 4000000 in
theorem bias1_stage : StableHlo.after (stage06 (F := Ideal)) X (Proc.devRef .tc main_v46)
    = hostBiasAdd (X (Proc.devRef .tc main_v43)) (X (Proc.devRef .tc main_arg4)) := by
  after_results_simp <;> rfl
set_option maxHeartbeats 4000000 in
theorem relu1_stage : StableHlo.after (stage07 (F := Ideal)) X (Proc.devRef .tc main_v47) = hostRelu (X (Proc.devRef .tc main_v46)) := by
  after_results_simp <;> rfl

set_option maxHeartbeats 4000000 in
theorem product2_stage : StableHlo.after (stage08 (F := Ideal)) X (Proc.devRef .tc main_v48)
    = hostProduct (X (Proc.devRef .tc main_v47)) (X (Proc.devRef .tc main_arg5)) := by
  after_results_simp <;> rfl
set_option maxHeartbeats 4000000 in
theorem propagate2_stage : StableHlo.after (stage09 (F := Ideal)) X (Proc.devRef .tc main_v61)
    = propagateWith (X (Proc.devRef .tc main_v3)) (X (Proc.devRef .tc main_v6)) (X (Proc.devRef .tc main_v29)) (X (Proc.devRef .tc main_v48)) := by
  after_results_simp <;> rfl
set_option maxHeartbeats 4000000 in
theorem bias2_stage : StableHlo.after (stage10 (F := Ideal)) X (Proc.devRef .tc main_v64)
    = hostBiasAdd (X (Proc.devRef .tc main_v61)) (X (Proc.devRef .tc main_arg6)) := by
  after_results_simp <;> rfl
set_option maxHeartbeats 4000000 in
theorem relu2_stage : StableHlo.after (stage11 (F := Ideal)) X (Proc.devRef .tc main_v65) = hostRelu (X (Proc.devRef .tc main_v64)) := by
  after_results_simp <;> rfl

set_option maxHeartbeats 4000000 in
theorem logits_stage : StableHlo.after (stage12 (F := Ideal)) X (Proc.devRef .tc main_v69)
    = hostLogits (X (Proc.devRef .tc main_v65)) (X (Proc.devRef .tc main_arg7)) (X (Proc.devRef .tc main_arg8)) := by
  after_results_simp <;> rfl

/-- Contents moved to a typed reference's buffer type and back are the contents. -/
theorem ofBuf_toBuf {T : BufTy} (x : TRef sig T) (v : T.Contents (Elt Ideal)) : x.ofBuf (x.toBuf v) = v := by
  obtain ⟨r, h, _, _⟩ := x
  subst h
  rfl

set_option maxHeartbeats 4000000 in
theorem rowMax_stage : StableHlo.after (stage13 (F := Ideal)) X (Proc.devRef .tc main_call3_v2) = hostRowMaxVec (X (Proc.devRef .tc main_v69)) := by
  after_results_simp
  simp only [ofBuf_toBuf]
  have e : ∀ u : (Proc.devRef .tc main_v69 : DevRef τ sig).ty.Contents (Elt Ideal),
      (TRef.of (T := ⟨S100000x40, .f32⟩) main_v69).ofBuf u = u := fun _ => rfl
  rw [e]
  rfl
set_option maxHeartbeats 4000000 in
theorem shift_stage : StableHlo.after (stage14 (F := Ideal)) X (Proc.devRef .tc main_call3_v5)
    = hostShiftBy (X (Proc.devRef .tc main_v69)) (X (Proc.devRef .tc main_call3_v2)) := by
  after_results_simp <;> rfl
set_option maxHeartbeats 4000000 in
theorem expSum_stage : StableHlo.after (stage15 (F := Ideal)) X (Proc.devRef .tc main_call3_v7) = hostExpSum (X (Proc.devRef .tc main_call3_v5)) := by
  after_results_simp <;> rfl
set_option maxHeartbeats 4000000 in
theorem normalize_stage : StableHlo.after (stage16 (F := Ideal)) X (Proc.devRef .tc main_v70)
    = hostNormalizeBy (X (Proc.devRef .tc main_call3_v5)) (X (Proc.devRef .tc main_call3_v7)) := by
  after_results_simp <;> rfl

/-! ## What each stage keeps -/

theorem keeps02_v3 : StableHlo.after (stage02 (F := Ideal)) X (Proc.devRef .tc main_v3) = X (Proc.devRef .tc main_v3) := by stage_keeps
theorem keeps03_v3 : StableHlo.after (stage03 (F := Ideal)) X (Proc.devRef .tc main_v3) = X (Proc.devRef .tc main_v3) := by stage_keeps
theorem keeps04_v3 : StableHlo.after (stage04 (F := Ideal)) X (Proc.devRef .tc main_v3) = X (Proc.devRef .tc main_v3) := by stage_keeps
theorem keeps05_v3 : StableHlo.after (stage05 (F := Ideal)) X (Proc.devRef .tc main_v3) = X (Proc.devRef .tc main_v3) := by stage_keeps
theorem keeps06_v3 : StableHlo.after (stage06 (F := Ideal)) X (Proc.devRef .tc main_v3) = X (Proc.devRef .tc main_v3) := by stage_keeps
theorem keeps07_v3 : StableHlo.after (stage07 (F := Ideal)) X (Proc.devRef .tc main_v3) = X (Proc.devRef .tc main_v3) := by stage_keeps
theorem keeps08_v3 : StableHlo.after (stage08 (F := Ideal)) X (Proc.devRef .tc main_v3) = X (Proc.devRef .tc main_v3) := by stage_keeps
theorem keeps02_v6 : StableHlo.after (stage02 (F := Ideal)) X (Proc.devRef .tc main_v6) = X (Proc.devRef .tc main_v6) := by stage_keeps
theorem keeps03_v6 : StableHlo.after (stage03 (F := Ideal)) X (Proc.devRef .tc main_v6) = X (Proc.devRef .tc main_v6) := by stage_keeps
theorem keeps04_v6 : StableHlo.after (stage04 (F := Ideal)) X (Proc.devRef .tc main_v6) = X (Proc.devRef .tc main_v6) := by stage_keeps
theorem keeps05_v6 : StableHlo.after (stage05 (F := Ideal)) X (Proc.devRef .tc main_v6) = X (Proc.devRef .tc main_v6) := by stage_keeps
theorem keeps06_v6 : StableHlo.after (stage06 (F := Ideal)) X (Proc.devRef .tc main_v6) = X (Proc.devRef .tc main_v6) := by stage_keeps
theorem keeps07_v6 : StableHlo.after (stage07 (F := Ideal)) X (Proc.devRef .tc main_v6) = X (Proc.devRef .tc main_v6) := by stage_keeps
theorem keeps08_v6 : StableHlo.after (stage08 (F := Ideal)) X (Proc.devRef .tc main_v6) = X (Proc.devRef .tc main_v6) := by stage_keeps
theorem keeps04_v29 : StableHlo.after (stage04 (F := Ideal)) X (Proc.devRef .tc main_v29) = X (Proc.devRef .tc main_v29) := by stage_keeps
theorem keeps05_v29 : StableHlo.after (stage05 (F := Ideal)) X (Proc.devRef .tc main_v29) = X (Proc.devRef .tc main_v29) := by stage_keeps
theorem keeps06_v29 : StableHlo.after (stage06 (F := Ideal)) X (Proc.devRef .tc main_v29) = X (Proc.devRef .tc main_v29) := by stage_keeps
theorem keeps07_v29 : StableHlo.after (stage07 (F := Ideal)) X (Proc.devRef .tc main_v29) = X (Proc.devRef .tc main_v29) := by stage_keeps
theorem keeps08_v29 : StableHlo.after (stage08 (F := Ideal)) X (Proc.devRef .tc main_v29) = X (Proc.devRef .tc main_v29) := by stage_keeps
theorem keeps01_arg0 : StableHlo.after (stage01 (F := Ideal)) X (Proc.devRef .tc main_arg0) = X (Proc.devRef .tc main_arg0) := by stage_keeps
theorem keeps02_arg0 : StableHlo.after (stage02 (F := Ideal)) X (Proc.devRef .tc main_arg0) = X (Proc.devRef .tc main_arg0) := by stage_keeps
theorem keeps03_arg0 : StableHlo.after (stage03 (F := Ideal)) X (Proc.devRef .tc main_arg0) = X (Proc.devRef .tc main_arg0) := by stage_keeps
theorem keeps01_arg3 : StableHlo.after (stage01 (F := Ideal)) X (Proc.devRef .tc main_arg3) = X (Proc.devRef .tc main_arg3) := by stage_keeps
theorem keeps02_arg3 : StableHlo.after (stage02 (F := Ideal)) X (Proc.devRef .tc main_arg3) = X (Proc.devRef .tc main_arg3) := by stage_keeps
theorem keeps03_arg3 : StableHlo.after (stage03 (F := Ideal)) X (Proc.devRef .tc main_arg3) = X (Proc.devRef .tc main_arg3) := by stage_keeps
theorem keeps01_arg4 : StableHlo.after (stage01 (F := Ideal)) X (Proc.devRef .tc main_arg4) = X (Proc.devRef .tc main_arg4) := by stage_keeps
theorem keeps02_arg4 : StableHlo.after (stage02 (F := Ideal)) X (Proc.devRef .tc main_arg4) = X (Proc.devRef .tc main_arg4) := by stage_keeps
theorem keeps03_arg4 : StableHlo.after (stage03 (F := Ideal)) X (Proc.devRef .tc main_arg4) = X (Proc.devRef .tc main_arg4) := by stage_keeps
theorem keeps04_arg4 : StableHlo.after (stage04 (F := Ideal)) X (Proc.devRef .tc main_arg4) = X (Proc.devRef .tc main_arg4) := by stage_keeps
theorem keeps05_arg4 : StableHlo.after (stage05 (F := Ideal)) X (Proc.devRef .tc main_arg4) = X (Proc.devRef .tc main_arg4) := by stage_keeps
theorem keeps01_arg5 : StableHlo.after (stage01 (F := Ideal)) X (Proc.devRef .tc main_arg5) = X (Proc.devRef .tc main_arg5) := by stage_keeps
theorem keeps02_arg5 : StableHlo.after (stage02 (F := Ideal)) X (Proc.devRef .tc main_arg5) = X (Proc.devRef .tc main_arg5) := by stage_keeps
theorem keeps03_arg5 : StableHlo.after (stage03 (F := Ideal)) X (Proc.devRef .tc main_arg5) = X (Proc.devRef .tc main_arg5) := by stage_keeps
theorem keeps04_arg5 : StableHlo.after (stage04 (F := Ideal)) X (Proc.devRef .tc main_arg5) = X (Proc.devRef .tc main_arg5) := by stage_keeps
theorem keeps05_arg5 : StableHlo.after (stage05 (F := Ideal)) X (Proc.devRef .tc main_arg5) = X (Proc.devRef .tc main_arg5) := by stage_keeps
theorem keeps06_arg5 : StableHlo.after (stage06 (F := Ideal)) X (Proc.devRef .tc main_arg5) = X (Proc.devRef .tc main_arg5) := by stage_keeps
theorem keeps07_arg5 : StableHlo.after (stage07 (F := Ideal)) X (Proc.devRef .tc main_arg5) = X (Proc.devRef .tc main_arg5) := by stage_keeps
theorem keeps01_arg6 : StableHlo.after (stage01 (F := Ideal)) X (Proc.devRef .tc main_arg6) = X (Proc.devRef .tc main_arg6) := by stage_keeps
theorem keeps02_arg6 : StableHlo.after (stage02 (F := Ideal)) X (Proc.devRef .tc main_arg6) = X (Proc.devRef .tc main_arg6) := by stage_keeps
theorem keeps03_arg6 : StableHlo.after (stage03 (F := Ideal)) X (Proc.devRef .tc main_arg6) = X (Proc.devRef .tc main_arg6) := by stage_keeps
theorem keeps04_arg6 : StableHlo.after (stage04 (F := Ideal)) X (Proc.devRef .tc main_arg6) = X (Proc.devRef .tc main_arg6) := by stage_keeps
theorem keeps05_arg6 : StableHlo.after (stage05 (F := Ideal)) X (Proc.devRef .tc main_arg6) = X (Proc.devRef .tc main_arg6) := by stage_keeps
theorem keeps06_arg6 : StableHlo.after (stage06 (F := Ideal)) X (Proc.devRef .tc main_arg6) = X (Proc.devRef .tc main_arg6) := by stage_keeps
theorem keeps07_arg6 : StableHlo.after (stage07 (F := Ideal)) X (Proc.devRef .tc main_arg6) = X (Proc.devRef .tc main_arg6) := by stage_keeps
theorem keeps08_arg6 : StableHlo.after (stage08 (F := Ideal)) X (Proc.devRef .tc main_arg6) = X (Proc.devRef .tc main_arg6) := by stage_keeps
theorem keeps09_arg6 : StableHlo.after (stage09 (F := Ideal)) X (Proc.devRef .tc main_arg6) = X (Proc.devRef .tc main_arg6) := by stage_keeps
theorem keeps01_arg7 : StableHlo.after (stage01 (F := Ideal)) X (Proc.devRef .tc main_arg7) = X (Proc.devRef .tc main_arg7) := by stage_keeps
theorem keeps02_arg7 : StableHlo.after (stage02 (F := Ideal)) X (Proc.devRef .tc main_arg7) = X (Proc.devRef .tc main_arg7) := by stage_keeps
theorem keeps03_arg7 : StableHlo.after (stage03 (F := Ideal)) X (Proc.devRef .tc main_arg7) = X (Proc.devRef .tc main_arg7) := by stage_keeps
theorem keeps04_arg7 : StableHlo.after (stage04 (F := Ideal)) X (Proc.devRef .tc main_arg7) = X (Proc.devRef .tc main_arg7) := by stage_keeps
theorem keeps05_arg7 : StableHlo.after (stage05 (F := Ideal)) X (Proc.devRef .tc main_arg7) = X (Proc.devRef .tc main_arg7) := by stage_keeps
theorem keeps06_arg7 : StableHlo.after (stage06 (F := Ideal)) X (Proc.devRef .tc main_arg7) = X (Proc.devRef .tc main_arg7) := by stage_keeps
theorem keeps07_arg7 : StableHlo.after (stage07 (F := Ideal)) X (Proc.devRef .tc main_arg7) = X (Proc.devRef .tc main_arg7) := by stage_keeps
theorem keeps08_arg7 : StableHlo.after (stage08 (F := Ideal)) X (Proc.devRef .tc main_arg7) = X (Proc.devRef .tc main_arg7) := by stage_keeps
theorem keeps09_arg7 : StableHlo.after (stage09 (F := Ideal)) X (Proc.devRef .tc main_arg7) = X (Proc.devRef .tc main_arg7) := by stage_keeps
theorem keeps10_arg7 : StableHlo.after (stage10 (F := Ideal)) X (Proc.devRef .tc main_arg7) = X (Proc.devRef .tc main_arg7) := by stage_keeps
theorem keeps11_arg7 : StableHlo.after (stage11 (F := Ideal)) X (Proc.devRef .tc main_arg7) = X (Proc.devRef .tc main_arg7) := by stage_keeps
theorem keeps01_arg8 : StableHlo.after (stage01 (F := Ideal)) X (Proc.devRef .tc main_arg8) = X (Proc.devRef .tc main_arg8) := by stage_keeps
theorem keeps02_arg8 : StableHlo.after (stage02 (F := Ideal)) X (Proc.devRef .tc main_arg8) = X (Proc.devRef .tc main_arg8) := by stage_keeps
theorem keeps03_arg8 : StableHlo.after (stage03 (F := Ideal)) X (Proc.devRef .tc main_arg8) = X (Proc.devRef .tc main_arg8) := by stage_keeps
theorem keeps04_arg8 : StableHlo.after (stage04 (F := Ideal)) X (Proc.devRef .tc main_arg8) = X (Proc.devRef .tc main_arg8) := by stage_keeps
theorem keeps05_arg8 : StableHlo.after (stage05 (F := Ideal)) X (Proc.devRef .tc main_arg8) = X (Proc.devRef .tc main_arg8) := by stage_keeps
theorem keeps06_arg8 : StableHlo.after (stage06 (F := Ideal)) X (Proc.devRef .tc main_arg8) = X (Proc.devRef .tc main_arg8) := by stage_keeps
theorem keeps07_arg8 : StableHlo.after (stage07 (F := Ideal)) X (Proc.devRef .tc main_arg8) = X (Proc.devRef .tc main_arg8) := by stage_keeps
theorem keeps08_arg8 : StableHlo.after (stage08 (F := Ideal)) X (Proc.devRef .tc main_arg8) = X (Proc.devRef .tc main_arg8) := by stage_keeps
theorem keeps09_arg8 : StableHlo.after (stage09 (F := Ideal)) X (Proc.devRef .tc main_arg8) = X (Proc.devRef .tc main_arg8) := by stage_keeps
theorem keeps10_arg8 : StableHlo.after (stage10 (F := Ideal)) X (Proc.devRef .tc main_arg8) = X (Proc.devRef .tc main_arg8) := by stage_keeps
theorem keeps11_arg8 : StableHlo.after (stage11 (F := Ideal)) X (Proc.devRef .tc main_arg8) = X (Proc.devRef .tc main_arg8) := by stage_keeps
theorem keeps13_v69 : StableHlo.after (stage13 (F := Ideal)) X (Proc.devRef .tc main_v69) = X (Proc.devRef .tc main_v69) := by stage_keeps
theorem keeps15_call3_v5 : StableHlo.after (stage15 (F := Ideal)) X (Proc.devRef .tc main_call3_v5) = X (Proc.devRef .tc main_call3_v5) := by stage_keeps

/-! ## The stages composed from the launch contents -/

variable (m : (ℓ : Loc nD τ sig) → Buf (Elt Ideal) ℓ) (c : Dev nD)

/-- The contents after the first `k` stages. -/
abbrev L01 : Valuation τ sig (Elt Ideal) := StableHlo.after (stage01 (F := Ideal)) (launchContents m c)
abbrev L02 : Valuation τ sig (Elt Ideal) := StableHlo.after (stage02 (F := Ideal)) (L01 m c)
abbrev L03 : Valuation τ sig (Elt Ideal) := StableHlo.after (stage03 (F := Ideal)) (L02 m c)
abbrev L04 : Valuation τ sig (Elt Ideal) := StableHlo.after (stage04 (F := Ideal)) (L03 m c)
abbrev L05 : Valuation τ sig (Elt Ideal) := StableHlo.after (stage05 (F := Ideal)) (L04 m c)
abbrev L06 : Valuation τ sig (Elt Ideal) := StableHlo.after (stage06 (F := Ideal)) (L05 m c)
abbrev L07 : Valuation τ sig (Elt Ideal) := StableHlo.after (stage07 (F := Ideal)) (L06 m c)
abbrev L08 : Valuation τ sig (Elt Ideal) := StableHlo.after (stage08 (F := Ideal)) (L07 m c)
abbrev L09 : Valuation τ sig (Elt Ideal) := StableHlo.after (stage09 (F := Ideal)) (L08 m c)
abbrev L10 : Valuation τ sig (Elt Ideal) := StableHlo.after (stage10 (F := Ideal)) (L09 m c)
abbrev L11 : Valuation τ sig (Elt Ideal) := StableHlo.after (stage11 (F := Ideal)) (L10 m c)
abbrev L12 : Valuation τ sig (Elt Ideal) := StableHlo.after (stage12 (F := Ideal)) (L11 m c)
abbrev L13 : Valuation τ sig (Elt Ideal) := StableHlo.after (stage13 (F := Ideal)) (L12 m c)
abbrev L14 : Valuation τ sig (Elt Ideal) := StableHlo.after (stage14 (F := Ideal)) (L13 m c)
abbrev L15 : Valuation τ sig (Elt Ideal) := StableHlo.after (stage15 (F := Ideal)) (L14 m c)
abbrev L16 : Valuation τ sig (Elt Ideal) := StableHlo.after (stage16 (F := Ideal)) (L15 m c)

theorem src03 : L03 m c (Proc.devRef .tc main_v3) = srcIds (m ((c.tc : Thread nD τ).loc main_arg1)) :=
  (keeps03_v3 (L02 m c)).trans ((keeps02_v3 (L01 m c)).trans (ids_src (launchContents m c)))
theorem dst03 : L03 m c (Proc.devRef .tc main_v6) = dstIds (m ((c.tc : Thread nD τ).loc main_arg1)) :=
  (keeps03_v6 (L02 m c)).trans ((keeps02_v6 (L01 m c)).trans (ids_dst (launchContents m c)))

theorem weight03 : L03 m c (Proc.devRef .tc main_v29) = edgeWeight (m ((c.tc : Thread nD τ).loc main_arg1)) := by
  have h29 : L03 m c (Proc.devRef .tc main_v29) = weightOf (L02 m c (Proc.devRef .tc main_v14)) (L02 m c (Proc.devRef .tc main_v3)) (L02 m c (Proc.devRef .tc main_v6)) := weight_stage (L02 m c)
  have h14 : L02 m c (Proc.devRef .tc main_v14) = whereElse (L01 m c (Proc.devRef .tc main_v12)) (L01 m c (Proc.devRef .tc main_v13)) (L01 m c (Proc.devRef .tc main_cst_2)) := where_stage (L01 m c)
  have h3 : L02 m c (Proc.devRef .tc main_v3) = L01 m c (Proc.devRef .tc main_v3) := keeps02_v3 (L01 m c)
  have h6 : L02 m c (Proc.devRef .tc main_v6) = L01 m c (Proc.devRef .tc main_v6) := keeps02_v6 (L01 m c)
  have s : L01 m c (Proc.devRef .tc main_v3) = srcIds (m ((c.tc : Thread nD τ).loc main_arg1)) := ids_src (launchContents m c)
  have d : L01 m c (Proc.devRef .tc main_v6) = dstIds (m ((c.tc : Thread nD τ).loc main_arg1)) := ids_dst (launchContents m c)
  have t : L01 m c (Proc.devRef .tc main_v12) = cmpf (F := Ideal) .ogt (degree (m ((c.tc : Thread nD τ).loc main_arg1))) (broadcastInDim S100000 ![] bcast_S_S100000 (constant (F := Ideal) S_ .f32 0x00000000#32)) := degree_test (launchContents m c)
  have r : L01 m c (Proc.devRef .tc main_v13) = Host.rsqrt (F := Ideal) (degree (m ((c.tc : Thread nD τ).loc main_arg1))) := degree_root (launchContents m c)
  have z : L01 m c (Proc.devRef .tc main_cst_2) = constant (F := Ideal) S_ .f32 0x00000000#32 := zero_scalar (launchContents m c)
  rw [h29, h14, h3, h6, s, d, t, r, z]
  rfl

theorem src04 : L04 m c (Proc.devRef .tc main_v3) = srcIds (m ((c.tc : Thread nD τ).loc main_arg1)) :=
  (keeps04_v3 (L03 m c)).trans (src03 m c)
theorem src05 : L05 m c (Proc.devRef .tc main_v3) = srcIds (m ((c.tc : Thread nD τ).loc main_arg1)) :=
  (keeps05_v3 (L04 m c)).trans (src04 m c)
theorem src06 : L06 m c (Proc.devRef .tc main_v3) = srcIds (m ((c.tc : Thread nD τ).loc main_arg1)) :=
  (keeps06_v3 (L05 m c)).trans (src05 m c)
theorem src07 : L07 m c (Proc.devRef .tc main_v3) = srcIds (m ((c.tc : Thread nD τ).loc main_arg1)) :=
  (keeps07_v3 (L06 m c)).trans (src06 m c)
theorem src08 : L08 m c (Proc.devRef .tc main_v3) = srcIds (m ((c.tc : Thread nD τ).loc main_arg1)) :=
  (keeps08_v3 (L07 m c)).trans (src07 m c)
theorem dst04 : L04 m c (Proc.devRef .tc main_v6) = dstIds (m ((c.tc : Thread nD τ).loc main_arg1)) :=
  (keeps04_v6 (L03 m c)).trans (dst03 m c)
theorem dst05 : L05 m c (Proc.devRef .tc main_v6) = dstIds (m ((c.tc : Thread nD τ).loc main_arg1)) :=
  (keeps05_v6 (L04 m c)).trans (dst04 m c)
theorem dst06 : L06 m c (Proc.devRef .tc main_v6) = dstIds (m ((c.tc : Thread nD τ).loc main_arg1)) :=
  (keeps06_v6 (L05 m c)).trans (dst05 m c)
theorem dst07 : L07 m c (Proc.devRef .tc main_v6) = dstIds (m ((c.tc : Thread nD τ).loc main_arg1)) :=
  (keeps07_v6 (L06 m c)).trans (dst06 m c)
theorem dst08 : L08 m c (Proc.devRef .tc main_v6) = dstIds (m ((c.tc : Thread nD τ).loc main_arg1)) :=
  (keeps08_v6 (L07 m c)).trans (dst07 m c)
theorem weight04 : L04 m c (Proc.devRef .tc main_v29) = edgeWeight (m ((c.tc : Thread nD τ).loc main_arg1)) :=
  (keeps04_v29 (L03 m c)).trans (weight03 m c)
theorem weight05 : L05 m c (Proc.devRef .tc main_v29) = edgeWeight (m ((c.tc : Thread nD τ).loc main_arg1)) :=
  (keeps05_v29 (L04 m c)).trans (weight04 m c)
theorem weight06 : L06 m c (Proc.devRef .tc main_v29) = edgeWeight (m ((c.tc : Thread nD τ).loc main_arg1)) :=
  (keeps06_v29 (L05 m c)).trans (weight05 m c)
theorem weight07 : L07 m c (Proc.devRef .tc main_v29) = edgeWeight (m ((c.tc : Thread nD τ).loc main_arg1)) :=
  (keeps07_v29 (L06 m c)).trans (weight06 m c)
theorem weight08 : L08 m c (Proc.devRef .tc main_v29) = edgeWeight (m ((c.tc : Thread nD τ).loc main_arg1)) :=
  (keeps08_v29 (L07 m c)).trans (weight07 m c)

theorem arg0_03 : L03 m c (Proc.devRef .tc main_arg0) = (m ((c.tc : Thread nD τ).loc main_arg0)) := ((keeps03_arg0 (L02 m c)).trans ((keeps02_arg0 (L01 m c)).trans (keeps01_arg0 (launchContents m c))))
theorem arg3_03 : L03 m c (Proc.devRef .tc main_arg3) = (m ((c.tc : Thread nD τ).loc main_arg3)) := ((keeps03_arg3 (L02 m c)).trans ((keeps02_arg3 (L01 m c)).trans (keeps01_arg3 (launchContents m c))))
theorem arg4_05 : L05 m c (Proc.devRef .tc main_arg4) = (m ((c.tc : Thread nD τ).loc main_arg4)) := ((keeps05_arg4 (L04 m c)).trans ((keeps04_arg4 (L03 m c)).trans ((keeps03_arg4 (L02 m c)).trans ((keeps02_arg4 (L01 m c)).trans (keeps01_arg4 (launchContents m c))))))
theorem arg5_07 : L07 m c (Proc.devRef .tc main_arg5) = (m ((c.tc : Thread nD τ).loc main_arg5)) := ((keeps07_arg5 (L06 m c)).trans ((keeps06_arg5 (L05 m c)).trans ((keeps05_arg5 (L04 m c)).trans ((keeps04_arg5 (L03 m c)).trans ((keeps03_arg5 (L02 m c)).trans ((keeps02_arg5 (L01 m c)).trans (keeps01_arg5 (launchContents m c))))))))
theorem arg6_09 : L09 m c (Proc.devRef .tc main_arg6) = (m ((c.tc : Thread nD τ).loc main_arg6)) := ((keeps09_arg6 (L08 m c)).trans ((keeps08_arg6 (L07 m c)).trans ((keeps07_arg6 (L06 m c)).trans ((keeps06_arg6 (L05 m c)).trans ((keeps05_arg6 (L04 m c)).trans ((keeps04_arg6 (L03 m c)).trans ((keeps03_arg6 (L02 m c)).trans ((keeps02_arg6 (L01 m c)).trans (keeps01_arg6 (launchContents m c))))))))))
theorem arg7_11 : L11 m c (Proc.devRef .tc main_arg7) = (m ((c.tc : Thread nD τ).loc main_arg7)) := ((keeps11_arg7 (L10 m c)).trans ((keeps10_arg7 (L09 m c)).trans ((keeps09_arg7 (L08 m c)).trans ((keeps08_arg7 (L07 m c)).trans ((keeps07_arg7 (L06 m c)).trans ((keeps06_arg7 (L05 m c)).trans ((keeps05_arg7 (L04 m c)).trans ((keeps04_arg7 (L03 m c)).trans ((keeps03_arg7 (L02 m c)).trans ((keeps02_arg7 (L01 m c)).trans (keeps01_arg7 (launchContents m c))))))))))))
theorem arg8_11 : L11 m c (Proc.devRef .tc main_arg8) = (m ((c.tc : Thread nD τ).loc main_arg8)) := ((keeps11_arg8 (L10 m c)).trans ((keeps10_arg8 (L09 m c)).trans ((keeps09_arg8 (L08 m c)).trans ((keeps08_arg8 (L07 m c)).trans ((keeps07_arg8 (L06 m c)).trans ((keeps06_arg8 (L05 m c)).trans ((keeps05_arg8 (L04 m c)).trans ((keeps04_arg8 (L03 m c)).trans ((keeps03_arg8 (L02 m c)).trans ((keeps02_arg8 (L01 m c)).trans (keeps01_arg8 (launchContents m c))))))))))))

/-- The first layer. -/
theorem layer1 : L07 m c (Proc.devRef .tc main_v47) = hostLayer (propagate (m ((c.tc : Thread nD τ).loc main_arg1))) ((m ((c.tc : Thread nD τ).loc main_arg0)) : FVec Ideal S100000x128 .f32) ((m ((c.tc : Thread nD τ).loc main_arg3)) : FVec Ideal S128x128 .f32) ((m ((c.tc : Thread nD τ).loc main_arg4)) : FVec Ideal S128 .f32) := by
  have h47 : L07 m c (Proc.devRef .tc main_v47) = hostRelu (L06 m c (Proc.devRef .tc main_v46)) := relu1_stage (L06 m c)
  have h46 : L06 m c (Proc.devRef .tc main_v46) = hostBiasAdd (L05 m c (Proc.devRef .tc main_v43)) (L05 m c (Proc.devRef .tc main_arg4)) := bias1_stage (L05 m c)
  have h43 : L05 m c (Proc.devRef .tc main_v43) = propagateWith (L04 m c (Proc.devRef .tc main_v3)) (L04 m c (Proc.devRef .tc main_v6)) (L04 m c (Proc.devRef .tc main_v29)) (L04 m c (Proc.devRef .tc main_v30)) := propagate1_stage (L04 m c)
  have h30 : L04 m c (Proc.devRef .tc main_v30) = hostProduct (L03 m c (Proc.devRef .tc main_arg0)) (L03 m c (Proc.devRef .tc main_arg3)) := product1_stage (L03 m c)
  rw [h47, h46, h43, h30, src04, dst04, weight04, arg4_05, arg0_03, arg3_03]
  rfl

/-- The second layer. -/
theorem layer2 : L11 m c (Proc.devRef .tc main_v65) = hostLayer (propagate (m ((c.tc : Thread nD τ).loc main_arg1))) (hostLayer (propagate (m ((c.tc : Thread nD τ).loc main_arg1))) ((m ((c.tc : Thread nD τ).loc main_arg0)) : FVec Ideal S100000x128 .f32) ((m ((c.tc : Thread nD τ).loc main_arg3)) : FVec Ideal S128x128 .f32) ((m ((c.tc : Thread nD τ).loc main_arg4)) : FVec Ideal S128 .f32)) ((m ((c.tc : Thread nD τ).loc main_arg5)) : FVec Ideal S128x128 .f32) ((m ((c.tc : Thread nD τ).loc main_arg6)) : FVec Ideal S128 .f32) := by
  have h65 : L11 m c (Proc.devRef .tc main_v65) = hostRelu (L10 m c (Proc.devRef .tc main_v64)) := relu2_stage (L10 m c)
  have h64 : L10 m c (Proc.devRef .tc main_v64) = hostBiasAdd (L09 m c (Proc.devRef .tc main_v61)) (L09 m c (Proc.devRef .tc main_arg6)) := bias2_stage (L09 m c)
  have h61 : L09 m c (Proc.devRef .tc main_v61) = propagateWith (L08 m c (Proc.devRef .tc main_v3)) (L08 m c (Proc.devRef .tc main_v6)) (L08 m c (Proc.devRef .tc main_v29)) (L08 m c (Proc.devRef .tc main_v48)) := propagate2_stage (L08 m c)
  have h48 : L08 m c (Proc.devRef .tc main_v48) = hostProduct (L07 m c (Proc.devRef .tc main_v47)) (L07 m c (Proc.devRef .tc main_arg5)) := product2_stage (L07 m c)
  rw [h65, h64, h61, h48, src08, dst08, weight08, arg6_09, layer1, arg5_07]
  rfl

/-- The logits. -/
theorem logits : L12 m c (Proc.devRef .tc main_v69) = hostLogits (hostLayer (propagate (m ((c.tc : Thread nD τ).loc main_arg1))) (hostLayer (propagate (m ((c.tc : Thread nD τ).loc main_arg1))) ((m ((c.tc : Thread nD τ).loc main_arg0)) : FVec Ideal S100000x128 .f32) ((m ((c.tc : Thread nD τ).loc main_arg3)) : FVec Ideal S128x128 .f32) ((m ((c.tc : Thread nD τ).loc main_arg4)) : FVec Ideal S128 .f32)) ((m ((c.tc : Thread nD τ).loc main_arg5)) : FVec Ideal S128x128 .f32) ((m ((c.tc : Thread nD τ).loc main_arg6)) : FVec Ideal S128 .f32)) ((m ((c.tc : Thread nD τ).loc main_arg7)) : FVec Ideal S128x40 .f32) ((m ((c.tc : Thread nD τ).loc main_arg8)) : FVec Ideal S40 .f32) := by
  have h69 : L12 m c (Proc.devRef .tc main_v69) = hostLogits (L11 m c (Proc.devRef .tc main_v65)) (L11 m c (Proc.devRef .tc main_arg7)) (L11 m c (Proc.devRef .tc main_arg8)) := logits_stage (L11 m c)
  rw [h69, layer2, arg7_11, arg8_11]

/-- The shifted logits. -/
theorem shifted : L14 m c (Proc.devRef .tc main_call3_v5) = hostShifted (hostLogits (hostLayer (propagate (m ((c.tc : Thread nD τ).loc main_arg1))) (hostLayer (propagate (m ((c.tc : Thread nD τ).loc main_arg1))) ((m ((c.tc : Thread nD τ).loc main_arg0)) : FVec Ideal S100000x128 .f32) ((m ((c.tc : Thread nD τ).loc main_arg3)) : FVec Ideal S128x128 .f32) ((m ((c.tc : Thread nD τ).loc main_arg4)) : FVec Ideal S128 .f32)) ((m ((c.tc : Thread nD τ).loc main_arg5)) : FVec Ideal S128x128 .f32) ((m ((c.tc : Thread nD τ).loc main_arg6)) : FVec Ideal S128 .f32)) ((m ((c.tc : Thread nD τ).loc main_arg7)) : FVec Ideal S128x40 .f32) ((m ((c.tc : Thread nD τ).loc main_arg8)) : FVec Ideal S40 .f32)) := by
  have h5 : L14 m c (Proc.devRef .tc main_call3_v5) = hostShiftBy (L13 m c (Proc.devRef .tc main_v69)) (L13 m c (Proc.devRef .tc main_call3_v2)) := shift_stage (L13 m c)
  have k : L13 m c (Proc.devRef .tc main_v69) = L12 m c (Proc.devRef .tc main_v69) := keeps13_v69 (L12 m c)
  have h2 : L13 m c (Proc.devRef .tc main_call3_v2) = hostRowMaxVec (L12 m c (Proc.devRef .tc main_v69)) := rowMax_stage (L12 m c)
  rw [h5, k, h2, logits, hostShifted_steps]

/-- The run's fold at the result buffer is the folded term. -/
theorem result_folded : StableHlo.after (RefRun.ops (F := Ideal)) (launchContents m c) (Proc.devRef .tc main_v70)
    = hostLogSoftmax (hostLogits (hostLayer (propagate (m ((c.tc : Thread nD τ).loc main_arg1))) (hostLayer (propagate (m ((c.tc : Thread nD τ).loc main_arg1))) ((m ((c.tc : Thread nD τ).loc main_arg0)) : FVec Ideal S100000x128 .f32) ((m ((c.tc : Thread nD τ).loc main_arg3)) : FVec Ideal S128x128 .f32) ((m ((c.tc : Thread nD τ).loc main_arg4)) : FVec Ideal S128 .f32)) ((m ((c.tc : Thread nD τ).loc main_arg5)) : FVec Ideal S128x128 .f32) ((m ((c.tc : Thread nD τ).loc main_arg6)) : FVec Ideal S128 .f32)) ((m ((c.tc : Thread nD τ).loc main_arg7)) : FVec Ideal S128x40 .f32) ((m ((c.tc : Thread nD τ).loc main_arg8)) : FVec Ideal S40 .f32)) := by
  rw [ops_split, after_append', after_append', after_append', after_append', after_append', after_append', after_append', after_append', after_append', after_append', after_append', after_append', after_append', after_append', after_append']
  show L16 m c (Proc.devRef .tc main_v70) = _
  have h70 : L16 m c (Proc.devRef .tc main_v70) = hostNormalizeBy (L15 m c (Proc.devRef .tc main_call3_v5)) (L15 m c (Proc.devRef .tc main_call3_v7)) := normalize_stage (L15 m c)
  have k5 : L15 m c (Proc.devRef .tc main_call3_v5) = L14 m c (Proc.devRef .tc main_call3_v5) := keeps15_call3_v5 (L14 m c)
  have h7 : L15 m c (Proc.devRef .tc main_call3_v7) = hostExpSum (L14 m c (Proc.devRef .tc main_call3_v5)) := expSum_stage (L14 m c)
  rw [h70, k5, h7, shifted, ← hostShifted_steps, hostLogSoftmax_steps]

/-- THE REFERENCE'S RESULT: the network function of the arguments, with the named propagation step. -/
theorem result_eq_network : StableHlo.after (RefRun.ops (F := Ideal)) (launchContents m c) (Proc.devRef .tc main_v70)
    = network (propagate (m ((c.tc : Thread nD τ).loc main_arg1))) ((m ((c.tc : Thread nD τ).loc main_arg0)) : FVec Ideal S100000x128 .f32) ((m ((c.tc : Thread nD τ).loc main_arg3)) : FVec Ideal S128x128 .f32) ((m ((c.tc : Thread nD τ).loc main_arg4)) : FVec Ideal S128 .f32) ((m ((c.tc : Thread nD τ).loc main_arg5)) : FVec Ideal S128x128 .f32) ((m ((c.tc : Thread nD τ).loc main_arg6)) : FVec Ideal S128 .f32) ((m ((c.tc : Thread nD τ).loc main_arg7)) : FVec Ideal S128x40 .f32) ((m ((c.tc : Thread nD τ).loc main_arg8)) : FVec Ideal S40 .f32) := by
  rw [result_folded, hostLogSoftmax_eq, hostLogits_eq, hostLayer_eq, hostLayer_eq]
  rfl

end Cert.ReferenceIdeal.RefStages

end
-- ==== Proof.lean ====
/- The proof of `Cert.Claim`: a two-layer graph-convolution network with a log-softmax head, computed by five kernel
   launches among host operations, against the same network written with host operations only.

   At the ideal values both programs compute one function of the arguments,
       head (biasRelu (P (linear (biasRelu (P (linear x W₁)) b₁) W₂)) b₂) W₃ b₃,
   `P` the propagation step over the graph (a normalised sum over each node's incoming edges), which both programs run
   on the host with the same operations on the same edge list and which is therefore carried as one named function.
   `linear` is the matrix product — each product launch's row blocks tile it (Proof/Product0, Product2), the host's
   `dot_general` is the same sum over `k` —; `biasRelu` adds a bias to every row and takes the maximum with zero
   (Proof/Rectifier1, Rectifier3 for the launches); `head` is the row-wise log-softmax of `H · W + b` (Proof/Head4): a
   row's maximum is a fold of `max` from `-∞` on both sides, a row's sum of exponentials a plain sum. The kernel
   program's result is read off its run boundary by boundary (Proof/KernelRun, HostStretches, KernelValue); the
   reference's from its run's fold of the operations, stage by stage (Proof/RefRun, RefStages, RefValue). No step uses that the inputs are finite.
   The frames of the two kernel programs are the generated ones; the reference's is its run with the result dropped;
   the idealization rewrote nothing, so `preserves` has nothing to show. -/
import proofs.«174355_j85005992722928_1_alg».proof.Defs
import proofs.«174355_j85005992722928_1_alg».proof.Proof.Gen.Kernel
import proofs.«174355_j85005992722928_1_alg».proof.Proof.Gen.Kernel.Skeleton
import proofs.«174355_j85005992722928_1_alg».proof.Proof.Gen.Kernel.Launch
import proofs.«174355_j85005992722928_1_alg».proof.Proof.Gen.Kernel.Points
import proofs.«174355_j85005992722928_1_alg».proof.Proof.Gen.Kernel.Frame
import proofs.«174355_j85005992722928_1_alg».proof.Proof.Gen.KernelIdeal
import proofs.«174355_j85005992722928_1_alg».proof.Proof.Gen.KernelIdeal.Skeleton
import proofs.«174355_j85005992722928_1_alg».proof.Proof.Gen.KernelIdeal.Launch
import proofs.«174355_j85005992722928_1_alg».proof.Proof.Gen.KernelIdeal.Points
import proofs.«174355_j85005992722928_1_alg».proof.Proof.Gen.KernelIdeal.Frame
import proofs.«174355_j85005992722928_1_alg».proof.Proof.Gen.ReferenceIdeal
import proofs.«174355_j85005992722928_1_alg».proof.Proof.Gen.Pre_finite_inputs
import proofs.«174355_j85005992722928_1_alg».proof.Proof.KernelRun
import proofs.«174355_j85005992722928_1_alg».proof.Proof.KernelValue
import proofs.«174355_j85005992722928_1_alg».proof.Proof.RefRun
import proofs.«174355_j85005992722928_1_alg».proof.Proof.RefValue
import proofs.«174355_j85005992722928_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both results are the network function of arguments that agree. -/
theorem algebraic : Cert.algebraic_KernelIdeal_ReferenceIdeal := by
  intro m ρ m' ρ' _ hagree
  refine ⟨fun c => Cert.KernelIdeal.Gen.W11 m ρ c (Proc.devRef .tc Cert.KernelIdeal.main_v63), Cert.KernelIdeal.ValueRun.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8⟩ := hagree c
  rw [Cert.ReferenceIdeal.RefStages.result_eq_network, a0, a1, a3, a4, a5, a6, a7, a8]
  exact (Cert.KernelIdeal.KernelValue.value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
